-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) (main_arg1 : FVec F S4x4096x512 .f32) (main_arg2 : FVec F S4x4096x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg2
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  main_v13
-- ==== Kernel.lean ====
abbrev S4x4096x512 : Shape := ⟨3, ![4, 4096, 512]⟩
abbrev S4x4096x4096 : Shape := ⟨3, ![4, 4096, 4096]⟩
abbrev S1x512x512 : Shape := ⟨3, ![1, 512, 512]⟩
abbrev S1x512x4096 : Shape := ⟨3, ![1, 512, 4096]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 29
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x4096, .f32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x4096, .f32⟩
  | .local _ .vmem, ⟨9, _⟩ => ⟨S1x512x4096, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v81 : BitVec 32 := Scalar.muli arg1 c512_i32
  v81
def k0_off1 (i : grid0.Coords) : Fin 3 → Nat :=
  let c0_28 : Index := 0#32
  let c0_29 : Index := 0#32
  let arg1 : BitVec 32 := BitVec.ofNat 32 (i 1).val
  let c512_i32 : BitVec 32 := 512#32
  let v81 : BitVec 32 := Scalar.muli arg1 c512_i32
  let v82 : BitVec 32 := v81
  let v83 : Index := Scalar.indexCast v82
  ![0, 0, v83.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  transposes_S512x512_p1_0_S512x512 : S512x512.Transposes [1, 0] S512x512
  iota_S512x512_d0_w32 : S512x512.Iotas .tc 32 [0]
  natLt_1_32 : 1 < 32
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  shapeCasts_S512x512_S1x512x512 : S512x512.ShapeCasts S1x512x512
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  dot_S512x512_S512x512_S512x512_1_0_0_1_n_n_wf : DotDims.WF S512x512 S512x512 S512x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x512x512.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x512.size a
  hwx0_0 : ∀ i : grid0.Coords, EltTy.bits .f32 = 32 ∨ (Rect.block (s := S4x4096x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x4096x512.size a
  hwx0_1 : ∀ i : grid0.Coords, EltTy.bits .f32 = 32 ∨ (Rect.block (s := S4x4096x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x4096x512.size a
  hwx0_2 : ∀ i : grid0.Coords, EltTy.bits .f32 = 32 ∨ (Rect.block (s := S4x4096x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x4096x512.size a
  hwx0_3 : ∀ i : grid0.Coords, EltTy.bits .f32 = 32 ∨ (Rect.block (s := S4x4096x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S4x4096x4096.size a
  hwx0_4 : ∀ i : grid0.Coords, EltTy.bits .f32 = 32 ∨ (Rect.block (s := S4x4096x4096) S1x512x4096.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4x4096x4096 : Shape := ⟨3, ![4, 4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S1x4096x4096, .i1⟩
  | .hbm, ⟨32, _⟩ => ⟨S_, .f32⟩
  | .hbm, ⟨33, _⟩ => ⟨S_, .f32⟩
  | .hbm, ⟨34, _⟩ => ⟨S4x4096x4096, .i1⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4x4096x4096 : S_.BroadcastsInDim S4x4096x4096 (![] : Fin 0 → Fin S4x4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Spec.lean ====
/-
  Block-local attention over f32[4, 4096, 512] arrays q, k, v, as functions of the argument arrays on the extended reals.

  Query row r of batch b scores key c by (∑ d, q[b,r,d] · k[b,c,d]) · s, s the scale both programs carry as one f32 word;
  a key outside the query's 64-wide block (r / 64 ≠ c / 64) is masked to ⊥.  The weights are the softmax of the masked row
  over all 4096 keys; the output is the weighted sum of the value rows.  A masked key's exponential is exp ⊥ = 0, so the
  row's maximum and sum are those of any set of keys that contains the query's block: in particular of the 512-wide tile
  (r / 512) the block lies in, which is how the tiled form below reads them.

  `W`, `O`, `M` are the three result arrays in the row-wise form; `tWeight`, `tOut` the tile-wise form; `blockMask` the
  mask as the chain of integer array operations both programs spell (an iota, its floor quotient by 64 through signs and
  remainders, two broadcasts and a comparison).
-/
import Idealize.ShloMosaic.PureOps
import Idealize.ShloMosaic.PureOps.Ideal
import Idealize.ShloMosaic.Lib.ValueIdx

noncomputable section

namespace Cert.BlockAttn

open Idealize.ShloMosaic Idealize.ShloMosaic.ValueIdx

/-! ## Shapes -/

abbrev SQ : Shape := ⟨3, ![4, 4096, 512]⟩
abbrev SW : Shape := ⟨3, ![4, 4096, 4096]⟩
abbrev SM : Shape := ⟨2, ![4096, 4096]⟩
abbrev S0 : Shape := ⟨0, ![]⟩
abbrev SV : Shape := ⟨1, ![4096]⟩
abbrev SC : Shape := ⟨2, ![4096, 1]⟩
abbrev SR : Shape := ⟨2, ![1, 4096]⟩

/-! ## Rows, tiles -/

/-- The tile (of 512 rows) a row lies in. -/
def tileOf (r : Fin 4096) : Fin 8 := ⟨r.val / 512, by have := r.isLt; omega⟩
/-- A row's position inside its tile. -/
def inTile (r : Fin 4096) : Fin 512 := ⟨r.val % 512, by omega⟩
/-- Row `r` of tile `i`. -/
def gRow (i : Fin 8) (r : Fin 512) : Fin 4096 := ⟨512 * i.val + r.val, by have := i.isLt; have := r.isLt; omega⟩

theorem gRow_tileOf_inTile (r : Fin 4096) : gRow (tileOf r) (inTile r) = r :=
  Fin.ext (by simp only [gRow, tileOf, inTile]; omega)

/-! ## The row-wise form -/

/-- The scale, the one f32 word both programs multiply the scores by. -/
abbrev scale : EReal := Ideal.ofBits .f32 0x3D3504F3#32

/-- The scaled inner product of query row `r` and key row `c` of batch `b`. -/
def score (q k : SQ.Idx → EReal) (b : Fin 4) (r c : Fin 4096) : EReal :=
  (∑ d : Fin 512, q (ix3 b r d) * k (ix3 b c d)) * scale

/-- The score, or ⊥ for a key outside the query's 64-wide block. -/
def masked (q k : SQ.Idx → EReal) (b : Fin 4) (r c : Fin 4096) : EReal :=
  if r.val / 64 = c.val / 64 then score q k b r c else ⊥

/-- The row's largest masked score. -/
def rowMax (q k : SQ.Idx → EReal) (b : Fin 4) (r : Fin 4096) : EReal :=
  (Finset.univ : Finset (Fin 4096)).fold max ⊥ (fun c => masked q k b r c)

def expo (q k : SQ.Idx → EReal) (b : Fin 4) (r c : Fin 4096) : EReal :=
  Ideal.exp (masked q k b r c - rowMax q k b r)

def rowSum (q k : SQ.Idx → EReal) (b : Fin 4) (r : Fin 4096) : EReal :=
  ∑ c : Fin 4096, expo q k b r c

/-- The attention weight of key `c` for query `r`. -/
def weight (q k : SQ.Idx → EReal) (b : Fin 4) (r c : Fin 4096) : EReal :=
  Ideal.div (expo q k b r c) (rowSum q k b r)

/-- The weights array. -/
def W (q k : SQ.Idx → EReal) : SW.Idx → EReal := fun j => weight q k (j 0) (j 1) (j 2)

/-- The output array. -/
def O (q k v : SQ.Idx → EReal) : SQ.Idx → EReal :=
  fun j => ∑ c : Fin 4096, weight q k (j 0) (j 1) c * v (ix3 (j 0) c (j 2))

/-- The block mask. -/
def M : SM.Idx → BitVec 1 := fun j => if (j 0).val / 64 = (j 1).val / 64 then 1#1 else 0#1

/-! ## The tile-wise form -/

def tMasked (q k : SQ.Idx → EReal) (b : Fin 4) (i : Fin 8) (r c : Fin 512) : EReal :=
  if r.val / 64 = c.val / 64 then score q k b (gRow i r) (gRow i c) else ⊥

def tMax (q k : SQ.Idx → EReal) (b : Fin 4) (i : Fin 8) (r : Fin 512) : EReal :=
  (Finset.univ : Finset (Fin 512)).fold max ⊥ (fun c => tMasked q k b i r c)

def tExp (q k : SQ.Idx → EReal) (b : Fin 4) (i : Fin 8) (r c : Fin 512) : EReal :=
  Ideal.exp (tMasked q k b i r c - tMax q k b i r)

def tSum (q k : SQ.Idx → EReal) (b : Fin 4) (i : Fin 8) (r : Fin 512) : EReal :=
  ∑ c : Fin 512, tExp q k b i r c

/-- The weight inside the tile: the tile's softmax on the block, an exact zero off it. -/
def tWeight (q k : SQ.Idx → EReal) (b : Fin 4) (i : Fin 8) (r c : Fin 512) : EReal :=
  if r.val / 64 = c.val / 64 then Ideal.div (tExp q k b i r c) (tSum q k b i r) else 0

/-- The tile's output row: its weights times the tile's value rows. -/
def tOut (q k v : SQ.Idx → EReal) (b : Fin 4) (i : Fin 8) (r : Fin 512) (d : Fin 512) : EReal :=
  ∑ c : Fin 512, tWeight q k b i r c * v (ix3 b (gRow i c) d)

/-! ## The mask as both programs spell it -/

/-- ⌊n / 64⌋ for n = 0 … 4095, as jnp's floor_divide lowers it: the truncated quotient, less one where the signs of the
    operands differ and the remainder is not zero. -/
def blockIdx (hb : S0.BroadcastsInDim SV (![] : Fin 0 → Fin SV.rank)) : IVec SV 32 :=
  let io : IVec SV 32 := iotaInDim SV 32 0
  let c64 : IVec S0 32 := constantI S0 32 64#32
  let v1 : IVec SV 32 := broadcastInDim SV ![] hb c64
  let v2 : IVec SV 32 := Host.divsi io v1
  let v3 : IVec SV 32 := signi io
  let v4 : IVec S0 32 := signi c64
  let v5 : IVec SV 32 := broadcastInDim SV ![] hb v4
  let v6 : IVec SV 1 := cmpi .ne v3 v5
  let v7 : IVec SV 32 := broadcastInDim SV ![] hb c64
  let v8 : IVec SV 32 := Host.remsi io v7
  let v9 : IVec SV 32 := broadcastInDim SV ![] hb (constantI S0 32 0#32)
  let v10 : IVec SV 1 := cmpi .ne v8 v9
  let v11 : IVec SV 1 := andi v6 v10
  let v12 : IVec SV 32 := broadcastInDim SV ![] hb (constantI S0 32 1#32)
  let v13 : IVec SV 32 := subi v2 v12
  select v11 v13 v2

/-- The mask: the block numbers down a column against the block numbers along a row. -/
def blockMask (hb : S0.BroadcastsInDim SV (![] : Fin 0 → Fin SV.rank))
    (hc : SV.BroadcastsInDim SC (![0] : Fin 1 → Fin SC.rank)) (hr : SV.BroadcastsInDim SR (![1] : Fin 1 → Fin SR.rank))
    (hcm : SC.BroadcastsInDim SM (![0, 1] : Fin 2 → Fin SM.rank)) (hrm : SR.BroadcastsInDim SM (![0, 1] : Fin 2 → Fin SM.rank)) :
    IVec SM 1 :=
  cmpi .eq (broadcastInDim SM ![0, 1] hcm (broadcastInDim SC ![0] hc (blockIdx hb)))
    (broadcastInDim SM ![0, 1] hrm (broadcastInDim SR ![1] hr (blockIdx hb)))

end Cert.BlockAttn

end
-- ==== Proof.KernelTerm.lean ====
/-
  The kernel's three results as whole-array functions of its argument arrays, over the body's arithmetic as the generated
  payload terms name it.  Grid point (b, i) reads the 512-row tile i of batch b of q, k and v.  From the q and k tiles the
  body forms the tile's weights (`att`); it writes them into columns 512·i … 512·i + 511 of its [512, 4096] block of the
  weights array, over a fill of zeros, and writes the weights' product with the v tile as its block of the output.  So row
  r of batch b of either result is computed at grid point (b, r / 512), at row r mod 512 of the tile.
-/
import proofs.«171919_j36206574306110_2_alg».proof.Proof.Gen.KernelIdeal.Skeleton
import proofs.«171919_j36206574306110_2_alg».proof.Proof.Spec

noncomputable section

namespace Cert.KernelIdeal.AttnTerm

open Idealize.ShloMosaic Idealize.ShloMosaic.ValueIdx Cert.KernelIdeal
open Cert.BlockAttn (tileOf inTile gRow)

variable [Facts]
open Facts₀ Facts

/-- The tile's attention weights, from the q tile and the k tile. -/
def att (x0 x1 : Vec Ideal S1x512x512 .f32) : FVec Ideal S512x512 .f32 :=
  Gen.k0_pay6 (F := Ideal) (Gen.k0_pay4 (F := Ideal) x0 x1) Gen.k0_pay5 (iota .tc S512x512 32 [1] iota_S512x512_d1_w32) 64#32

/-- Tile `i` of batch `b` of a [4, 4096, 512] array, as the [1, 512, 512] block the body loads. -/
def blk (x : FVec Ideal S4x4096x512 .f32) (b : Fin 4) (i : Fin 8) : Vec Ideal S1x512x512 .f32 :=
  fun y => x (ix3 b (gRow i (y 1)) (y 2))

/-- The weights array at batch `b`, query row `r`, key `c`: inside the row's tile the stored tile weights, outside it
    the fill. -/
def kw (q k : FVec Ideal S4x4096x512 .f32) (b : Fin 4) (r c : Fin 4096) : EReal :=
  if c.val / 512 = r.val / 512 then
    Gen.k0_pay1 (F := Ideal) (att (blk q b (tileOf r)) (blk k b (tileOf r))) (ix3 (0 : Fin 1) (inTile r) (inTile c))
  else Gen.k0_pay7 (F := Ideal) (ix3 (0 : Fin 1) (inTile r) c)

/-- The output array at batch `b`, query row `r`, feature `d`. -/
def ko (q k v : FVec Ideal S4x4096x512 .f32) (b : Fin 4) (r : Fin 4096) (d : Fin 512) : EReal :=
  Gen.k0_pay2 (F := Ideal) (Gen.k0_pay3 (F := Ideal) (blk v b (tileOf r))) (att (blk q b (tileOf r)) (blk k b (tileOf r)))
    (ix3 (0 : Fin 1) (inTile r) d)

/-- The weights array, the second result. -/
def KW (q k : FVec Ideal S4x4096x512 .f32) : FVec Ideal S4x4096x4096 .f32 := fun j => kw q k (j 0) (j 1) (j 2)

/-- The output array, the first result. -/
def KO (q k v : FVec Ideal S4x4096x512 .f32) : FVec Ideal S4x4096x512 .f32 := fun j => ko q k v (j 0) (j 1) (j 2)

/-- The block mask, the third result: the host operations after the region, composed. -/
def KM : IVec S4096x4096 1 :=
  Cert.BlockAttn.blockMask bcast_S_S4096 bcast_S4096_S4096x1_0 bcast_S4096_S1x4096_1 bcast_S4096x1_S4096x4096_0_1
    bcast_S1x4096_S4096x4096_0_1

end Cert.KernelIdeal.AttnTerm

end
-- ==== Proof.KernelPieces.lean ====
/-
  What the kernel body leaves in its two output blocks, as functions of the three tiles it loads (q, k, v tiles x0, x1, x2).

  The output block receives one store of the whole [1, 512, 512] block: the product of the tile's weights with the value
  tile.  The weights block [1, 512, 4096] receives two stores: first zeros over the whole block, then the tile's weights
  over the 512 columns starting at column 512·i, i the tile's number (the second grid coordinate).  Read back, an entry
  of the weights block whose column lies in [512·i, 512·i + 512) is the tile weight at the column less 512·i; any other
  entry is the fill.
-/
import proofs.«171919_j36206574306110_2_alg».proof.Proof.Gen.KernelIdeal.Frame
import proofs.«171919_j36206574306110_2_alg».proof.Proof.KernelTerm
import Idealize.ShloMosaic.Lib.Pipeline.Value
import Idealize.ShloMosaic.Lib.Tactic

noncomputable section

namespace Cert.KernelIdeal.AttnRun

open Idealize.ShloMosaic Idealize.ShloMosaic.TcCoe Idealize.SL.Sem Idealize.ShloMosaic.ValueIdx
open Idealize.ShloMosaic.Pipeline (Dat)
open Cert.KernelIdeal Cert.KernelIdeal.Gen
open Cert.BlockAttn (tileOf inTile gRow)

/-- The zero offsets of a whole-block store, as the constant function. -/
theorem hz3 : (![0, 0, 0] : Fin 3 → Nat) = fun _ => 0 := funext fun a => by fin_cases a <;> rfl

/-- The output block after the body: its one whole store, the tile weights' product with the value tile. -/
theorem out3_eq (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x4096 .f32) (harg6 : arg6.IsWhole)
    (x0 x1 x2 : Vec Ideal S1x512x512 .f32) :
    out0_A_3 (F := Ideal) c i arg2 harg2 arg3 harg3 arg4 harg4 arg5 harg5 arg6 harg6 x0 x1 x2
      = k0_pay2 (F := Ideal) (k0_pay3 (F := Ideal) x2) (AttnTerm.att x0 x1) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz3]
  simp only [View.readAt_eq_ld, harg2.read_unread, harg3.read_unread, harg4.read_unread, View.ld_unit_zero (S := S1x512x512) hz3]
  rfl

/-- The two stores into the weights block, last first: `w1` over the 512 columns from column 512·(i 1), after `w2`
    over the whole [1, 512, 4096] block. -/
abbrev pieces4 (i : grid0.Coords) (w1 : Vec Ideal S1x512x512 .f32) (w2 : Vec Ideal S1x512x4096 .f32) :
    List (View.Piece (Elt Ideal) S1x512x4096 .f32) :=
  [⟨Rect.unit (s := S1x512x4096) (k0_off1 i) S1x512x512.size (k0_off1_inb i), w1⟩,
   ⟨Rect.unit (s := S1x512x4096) ![0, 0, 0] S1x512x4096.size inb_S1x512x4096_S1x512x4096_0_0_0, w2⟩]

/-- The weights block after the body: the tile's weights stored over the fill of zeros. -/
theorem out4_canon (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x4096 .f32) (harg6 : arg6.IsWhole)
    (x0 x1 x2 : Vec Ideal S1x512x512 .f32) :
    out0_A_4 (F := Ideal) c i arg2 harg2 arg3 harg3 arg4 harg4 arg5 harg5 arg6 harg6 x0 x1 x2
      = View.canon (pieces4 i (k0_pay1 (F := Ideal) (AttnTerm.att x0 x1)) (k0_pay7 (F := Ideal))) := by
  unfold out0_A_4
  rw [View.read_writes_eq_canon _ _ _ (cover0_A_4 c i arg2 harg2 arg3 harg3 arg4 harg4 arg5 harg5 arg6 harg6 x0 x1 x2)]
  unfold kernelRun0_A
  dsimp only
  sl_unfold_run_names
  simp only [View.readAt_eq_ld, harg2.read_unread, harg3.read_unread, View.ld_unit_zero (S := S1x512x512) hz3]
  rfl

/-- Entry (0, r, 512·(i 1) + cl) of the weights block is entry (0, r, cl) of the later store's rectangle. -/
theorem emb4 (i : grid0.Coords) (r : Fin 512) (cl : Fin 512) (cc : Fin 4096) (hc : cc.val = 512 * (i 1).val + cl.val) :
    (ix3 (0 : Fin 1) r cc : S1x512x4096.Idx)
      = (Rect.unit (s := S1x512x4096) (k0_off1 i) S1x512x512.size (k0_off1_inb i)).emb (ix3 (0 : Fin 1) r cl) := by
  funext a
  apply Fin.ext
  rw [Rect.emb_apply, Rect.off_unit, Rect.stride_unit]
  match a with
  | ⟨0, _⟩ => show (0 : ℕ) = k0_off1 i 0 + 1 * 0; rw [show k0_off1 i 0 = 0 from congrFun (k0_off1_eq i) 0]
  | ⟨1, _⟩ => show r.val = k0_off1 i 1 + 1 * r.val; rw [show k0_off1 i 1 = 0 from congrFun (k0_off1_eq i) 1]; omega
  | ⟨2, _⟩ => show cc.val = k0_off1 i 2 + 1 * cl.val; rw [show k0_off1 i 2 = 512 * (i 1).val from congrFun (k0_off1_eq i) 2]; omega

/-- Inside the tile's columns the later store is read, at the column inside the tile. -/
theorem canon4_in (i : grid0.Coords) (w1 : Vec Ideal S1x512x512 .f32) (w2 : Vec Ideal S1x512x4096 .f32)
    (r : Fin 512) (cl : Fin 512) (cc : Fin 4096) (hc : cc.val = 512 * (i 1).val + cl.val) :
    View.canon (pieces4 i w1 w2) (ix3 (0 : Fin 1) r cc) = w1 (ix3 (0 : Fin 1) r cl) :=
  (congrArg (View.canon (pieces4 i w1 w2)) (emb4 i r cl cc hc)).trans
    (View.canon_cons_emb (Val := Elt Ideal) (s := S1x512x4096) (e := .f32)
      (Rect.unit (s := S1x512x4096) (k0_off1 i) S1x512x512.size (k0_off1_inb i)) w1
      [⟨Rect.unit (s := S1x512x4096) ![0, 0, 0] S1x512x4096.size inb_S1x512x4096_S1x512x4096_0_0_0, w2⟩]
      (ix3 (0 : Fin 1) r cl))

/-- A column of another tile is outside the later store's rectangle. -/
theorem notmem4 (i : grid0.Coords) (r : Fin 512) (cc : Fin 4096) (hc : cc.val / 512 ≠ (i 1).val) :
    (ix3 (0 : Fin 1) r cc : S1x512x4096.Idx)
      ∉ (Rect.unit (s := S1x512x4096) (k0_off1 i) S1x512x512.size (k0_off1_inb i)).set := by
  rw [Rect.mem_set_unit]
  intro h
  have h2 : k0_off1 i 2 ≤ cc.val ∧ cc.val < k0_off1 i 2 + 512 := h 2
  rw [show k0_off1 i 2 = 512 * (i 1).val from congrFun (k0_off1_eq i) 2] at h2
  omega

/-- Outside the tile's columns the fill is read. -/
theorem canon4_out (i : grid0.Coords) (w1 : Vec Ideal S1x512x512 .f32) (w2 : Vec Ideal S1x512x4096 .f32)
    (r : Fin 512) (cc : Fin 4096) (hc : cc.val / 512 ≠ (i 1).val) :
    View.canon (pieces4 i w1 w2) (ix3 (0 : Fin 1) r cc) = w2 (ix3 (0 : Fin 1) r cc) :=
  (View.canon_cons_of_not_mem (Val := Elt Ideal) (s := S1x512x4096) (e := .f32)
      ⟨Rect.unit (s := S1x512x4096) (k0_off1 i) S1x512x512.size (k0_off1_inb i), w1⟩
      [⟨Rect.unit (s := S1x512x4096) ![0, 0, 0] S1x512x4096.size inb_S1x512x4096_S1x512x4096_0_0_0, w2⟩]
      (notmem4 i r cc hc)).trans
    (congrFun (View.canon_unit_zero (Val := Elt Ideal) (S := S1x512x4096) (e := .f32) hz3 inb_S1x512x4096_S1x512x4096_0_0_0 w2) _)

end Cert.KernelIdeal.AttnRun

end
-- ==== Proof.KernelPoint.lean ====
/-
  A grid point of the kernel's [4, 8] grid is a batch b and a tile number i; its blocks are tile i of batch b.
  `ptB`, `ptI` name the two coordinates of a point as numbers below 4 and 8; `blkW` is tile i of batch b of a
  [4, 4096, 4096] array (512 rows, all 4096 columns), as the [1, 512, 4096] block the body stores into.
-/
import proofs.«171919_j36206574306110_2_alg».proof.Proof.KernelTerm

noncomputable section

namespace Cert.KernelIdeal.AttnRun

open Idealize.ShloMosaic Idealize.ShloMosaic.ValueIdx
open Cert.KernelIdeal
open Cert.BlockAttn (tileOf inTile gRow)

/-- The batch of grid point `t`: its first coordinate. -/
def ptB (t : Fin cfg0.N) : Fin 4 := ⟨(grid0.coords t 0).val, (grid0.coords t 0).isLt⟩

/-- The tile number of grid point `t`: its second coordinate. -/
def ptI (t : Fin cfg0.N) : Fin 8 := ⟨(grid0.coords t 1).val, (grid0.coords t 1).isLt⟩

/-- Tile `i` of batch `b` of a [4, 4096, 4096] array, as a [1, 512, 4096] block. -/
def blkW (x : FVec Ideal S4x4096x4096 .f32) (b : Fin 4) (i : Fin 8) : Vec Ideal S1x512x4096 .f32 :=
  fun y => x (ix3 b (gRow i (y 1)) (y 2))

end Cert.KernelIdeal.AttnRun

end
-- ==== Proof.KernelTail.lean ====
/-
  The block mask as the kernel program computes it: after its one region the program runs three stretches of host
  operations — an iota and the constant 64; the floor quotient by 64 through signs and remainders; two broadcasts of
  the quotient (down a column, along a row), their broadcasts to the square, and the comparison.  None of them reads an
  array of the region or an argument, so from any contents whatever the mask buffer ends at the composed term.
-/
import proofs.«171919_j36206574306110_2_alg».proof.Proof.Gen.KernelIdeal.Launch
import proofs.«171919_j36206574306110_2_alg».proof.Proof.KernelTerm
import Idealize.ShloMosaic.Lib.StableHlo.Run

noncomputable section

namespace Cert.KernelIdeal.AttnTail

open Cert.KernelIdeal Idealize.ShloMosaic Idealize.ShloMosaic.TcCoe Idealize.SL.Sem Idealize.ShloMosaic.StableHlo

/-- The fold of the three stretches read at the mask buffer: each operation's result at its own buffer is its function
    of its operands' contents, at any other buffer what was there; the typed references' transports are the identity at
    these literal references and the conversion of the constant to its own type is the identity, so what is left is the
    mask's chain of integer operations, whatever the starting contents. -/
theorem mask_after (X : Valuation τ sig (Elt Ideal)) :
    StableHlo.after (List.flatten [Cert.KernelIdeal.Gen.hostOps1 (F := Ideal), Cert.KernelIdeal.Gen.hostOps1_1, Cert.KernelIdeal.Gen.hostOps1_2]) X (Proc.devRef .tc main_v7) = Cert.KernelIdeal.AttnTerm.KM := by
  simp only [Gen.hostOps1, Gen.hostOps1_1, Gen.hostOps1_2, List.flatten_cons, List.flatten_nil, List.append_nil,
    List.cons_append, List.nil_append]
  after_results_simp
  rfl

end Cert.KernelIdeal.AttnTail

end
-- ==== Proof.KernelBlocks.lean ====
/-
  The window blocks at a grid point, read as tiles.  Grid point t of the [4, 8] grid is a batch b and a tile number i.
  Every window's index map sends the point to block (b, i, 0): so the block of a [4, 4096, 512] array at t is rows
  512·i … 512·i + 511 of batch b (all 512 columns), and the block of the [4, 4096, 4096] array is the same rows with all
  4096 columns.  An element y of the block sits in the array at (b, 512·i + y₁, y₂): on each axis the block's coordinate
  is the block index times the block size plus the coordinate inside the block.
-/
import proofs.«171919_j36206574306110_2_alg».proof.Proof.Gen.KernelIdeal.Frame
import proofs.«171919_j36206574306110_2_alg».proof.Proof.KernelTerm
import proofs.«171919_j36206574306110_2_alg».proof.Proof.KernelPoint
import Idealize.ShloMosaic.Lib.Pipeline.Value

noncomputable section

namespace Cert.KernelIdeal.AttnRun

open Idealize.ShloMosaic Idealize.ShloMosaic.TcCoe Idealize.SL.Sem Idealize.ShloMosaic.ValueIdx
open Cert.KernelIdeal Cert.KernelIdeal.Gen
open Cert.BlockAttn (tileOf inTile gRow)

/-! ## The index maps in closed form -/

/-- Window 0's index map sends the point (b, i) to block (b, i, 0). -/
theorem tr0_eq : ∀ i : grid0.Coords, cc0_transform_0 i = ![(i 0).val, (i 1).val, 0] := by decide +kernel
/-- Window 1's index map sends the point (b, i) to block (b, i, 0). -/
theorem tr1_eq : ∀ i : grid0.Coords, cc0_transform_1 i = ![(i 0).val, (i 1).val, 0] := by decide +kernel
/-- Window 2's index map sends the point (b, i) to block (b, i, 0). -/
theorem tr2_eq : ∀ i : grid0.Coords, cc0_transform_2 i = ![(i 0).val, (i 1).val, 0] := by decide +kernel
/-- Window 3's index map sends the point (b, i) to block (b, i, 0). -/
theorem tr3_eq : ∀ i : grid0.Coords, cc0_transform_3 i = ![(i 0).val, (i 1).val, 0] := by decide +kernel
/-- Window 4's index map sends the point (b, i) to block (b, i, 0). -/
theorem tr4_eq : ∀ i : grid0.Coords, cc0_transform_4 i = ![(i 0).val, (i 1).val, 0] := by decide +kernel

/-! ## The blocks of the five windows -/

/-- Window 0's block at point t of a [4, 4096, 512] array is tile i of batch b. -/
theorem read_blk0 (t : Fin cfg0.N) (G : FVec Ideal S4x4096x512 .f32) :
    (((cfg0.win 0).blk t).view.read (Elt Ideal) G : Vec Ideal S1x512x512 .f32) = AttnTerm.blk G (ptB t) (ptI t) := by
  refine funext fun (y : S1x512x512.Idx) => ?_
  show G (((cfg0.win 0).blk t).view.emb y) = G (ix3 (ptB t) (gRow (ptI t) (y 1)) (y 2))
  refine congrArg G ?_
  have e := tr0_eq (grid0.coords t)
  funext a; apply Fin.ext
  match a with
  | ⟨0, _⟩ =>
    show win0_0.index t (0 : Fin 3) * 1 + 1 * (y 0).val = (grid0.coords t 0).val
    have h0 : (y 0).val < 1 := (y 0).isLt
    have hi : win0_0.index t (0 : Fin 3) = (grid0.coords t 0).val := congrFun e 0
    omega
  | ⟨1, _⟩ =>
    show win0_0.index t (1 : Fin 3) * 512 + 1 * (y 1).val = 512 * (grid0.coords t 1).val + (y 1).val
    have hi : win0_0.index t (1 : Fin 3) = (grid0.coords t 1).val := congrFun e 1
    omega
  | ⟨2, _⟩ =>
    show win0_0.index t (2 : Fin 3) * 512 + 1 * (y 2).val = (y 2).val
    have hi : win0_0.index t (2 : Fin 3) = 0 := congrFun e 2
    omega

/-- Window 1's block at point t of a [4, 4096, 512] array is tile i of batch b. -/
theorem read_blk1 (t : Fin cfg0.N) (G : FVec Ideal S4x4096x512 .f32) :
    (((cfg0.win 1).blk t).view.read (Elt Ideal) G : Vec Ideal S1x512x512 .f32) = AttnTerm.blk G (ptB t) (ptI t) := by
  refine funext fun (y : S1x512x512.Idx) => ?_
  show G (((cfg0.win 1).blk t).view.emb y) = G (ix3 (ptB t) (gRow (ptI t) (y 1)) (y 2))
  refine congrArg G ?_
  have e := tr1_eq (grid0.coords t)
  funext a; apply Fin.ext
  match a with
  | ⟨0, _⟩ =>
    show win0_1.index t (0 : Fin 3) * 1 + 1 * (y 0).val = (grid0.coords t 0).val
    have h0 : (y 0).val < 1 := (y 0).isLt
    have hi : win0_1.index t (0 : Fin 3) = (grid0.coords t 0).val := congrFun e 0
    omega
  | ⟨1, _⟩ =>
    show win0_1.index t (1 : Fin 3) * 512 + 1 * (y 1).val = 512 * (grid0.coords t 1).val + (y 1).val
    have hi : win0_1.index t (1 : Fin 3) = (grid0.coords t 1).val := congrFun e 1
    omega
  | ⟨2, _⟩ =>
    show win0_1.index t (2 : Fin 3) * 512 + 1 * (y 2).val = (y 2).val
    have hi : win0_1.index t (2 : Fin 3) = 0 := congrFun e 2
    omega

/-- Window 2's block at point t of a [4, 4096, 512] array is tile i of batch b. -/
theorem read_blk2 (t : Fin cfg0.N) (G : FVec Ideal S4x4096x512 .f32) :
    (((cfg0.win 2).blk t).view.read (Elt Ideal) G : Vec Ideal S1x512x512 .f32) = AttnTerm.blk G (ptB t) (ptI t) := by
  refine funext fun (y : S1x512x512.Idx) => ?_
  show G (((cfg0.win 2).blk t).view.emb y) = G (ix3 (ptB t) (gRow (ptI t) (y 1)) (y 2))
  refine congrArg G ?_
  have e := tr2_eq (grid0.coords t)
  funext a; apply Fin.ext
  match a with
  | ⟨0, _⟩ =>
    show win0_2.index t (0 : Fin 3) * 1 + 1 * (y 0).val = (grid0.coords t 0).val
    have h0 : (y 0).val < 1 := (y 0).isLt
    have hi : win0_2.index t (0 : Fin 3) = (grid0.coords t 0).val := congrFun e 0
    omega
  | ⟨1, _⟩ =>
    show win0_2.index t (1 : Fin 3) * 512 + 1 * (y 1).val = 512 * (grid0.coords t 1).val + (y 1).val
    have hi : win0_2.index t (1 : Fin 3) = (grid0.coords t 1).val := congrFun e 1
    omega
  | ⟨2, _⟩ =>
    show win0_2.index t (2 : Fin 3) * 512 + 1 * (y 2).val = (y 2).val
    have hi : win0_2.index t (2 : Fin 3) = 0 := congrFun e 2
    omega

/-- Window 3's block at point t of a [4, 4096, 512] array is tile i of batch b. -/
theorem read_blk3 (t : Fin cfg0.N) (G : FVec Ideal S4x4096x512 .f32) :
    (((cfg0.win 3).blk t).view.read (Elt Ideal) G : Vec Ideal S1x512x512 .f32) = AttnTerm.blk G (ptB t) (ptI t) := by
  refine funext fun (y : S1x512x512.Idx) => ?_
  show G (((cfg0.win 3).blk t).view.emb y) = G (ix3 (ptB t) (gRow (ptI t) (y 1)) (y 2))
  refine congrArg G ?_
  have e := tr3_eq (grid0.coords t)
  funext a; apply Fin.ext
  match a with
  | ⟨0, _⟩ =>
    show win0_3.index t (0 : Fin 3) * 1 + 1 * (y 0).val = (grid0.coords t 0).val
    have h0 : (y 0).val < 1 := (y 0).isLt
    have hi : win0_3.index t (0 : Fin 3) = (grid0.coords t 0).val := congrFun e 0
    omega
  | ⟨1, _⟩ =>
    show win0_3.index t (1 : Fin 3) * 512 + 1 * (y 1).val = 512 * (grid0.coords t 1).val + (y 1).val
    have hi : win0_3.index t (1 : Fin 3) = (grid0.coords t 1).val := congrFun e 1
    omega
  | ⟨2, _⟩ =>
    show win0_3.index t (2 : Fin 3) * 512 + 1 * (y 2).val = (y 2).val
    have hi : win0_3.index t (2 : Fin 3) = 0 := congrFun e 2
    omega

/-- Window 4's block at point t of a [4, 4096, 4096] array is rows 512·i … 512·i + 511 of batch b, all columns. -/
theorem read_blk4 (t : Fin cfg0.N) (G : FVec Ideal S4x4096x4096 .f32) :
    (((cfg0.win 4).blk t).view.read (Elt Ideal) G : Vec Ideal S1x512x4096 .f32) = blkW G (ptB t) (ptI t) := by
  refine funext fun (y : S1x512x4096.Idx) => ?_
  show G (((cfg0.win 4).blk t).view.emb y) = G (ix3 (ptB t) (gRow (ptI t) (y 1)) (y 2))
  refine congrArg G ?_
  have e := tr4_eq (grid0.coords t)
  funext a; apply Fin.ext
  match a with
  | ⟨0, _⟩ =>
    show win0_4.index t (0 : Fin 3) * 1 + 1 * (y 0).val = (grid0.coords t 0).val
    have h0 : (y 0).val < 1 := (y 0).isLt
    have hi : win0_4.index t (0 : Fin 3) = (grid0.coords t 0).val := congrFun e 0
    omega
  | ⟨1, _⟩ =>
    show win0_4.index t (1 : Fin 3) * 512 + 1 * (y 1).val = 512 * (grid0.coords t 1).val + (y 1).val
    have hi : win0_4.index t (1 : Fin 3) = (grid0.coords t 1).val := congrFun e 1
    omega
  | ⟨2, _⟩ =>
    show win0_4.index t (2 : Fin 3) * 4096 + 1 * (y 2).val = (y 2).val
    have hi : win0_4.index t (2 : Fin 3) = 0 := congrFun e 2
    omega

/-! ## The input blocks as the region finds them -/

/-- Input window 0's block at point t, read off argument 0 as the region finds it, is tile i of batch b of that array. -/
theorem iblk0_eq (m : (ℓ : Loc nD τ sig) → Buf (Elt Ideal) ℓ) (c : Dev nD) (t : Fin cfg0.N) :
    (iblk m c 0 t : Vec Ideal S1x512x512 .f32) = AttnTerm.blk (V m c main_arg0) (ptB t) (ptI t) :=
  read_blk0 t (V m c main_arg0)

/-- Input window 1's block at point t, read off argument 1 as the region finds it, is tile i of batch b of that array. -/
theorem iblk1_eq (m : (ℓ : Loc nD τ sig) → Buf (Elt Ideal) ℓ) (c : Dev nD) (t : Fin cfg0.N) :
    (iblk m c 1 t : Vec Ideal S1x512x512 .f32) = AttnTerm.blk (V m c main_arg1) (ptB t) (ptI t) :=
  read_blk1 t (V m c main_arg1)

/-- Input window 2's block at point t, read off argument 2 as the region finds it, is tile i of batch b of that array. -/
theorem iblk2_eq (m : (ℓ : Loc nD τ sig) → Buf (Elt Ideal) ℓ) (c : Dev nD) (t : Fin cfg0.N) :
    (iblk m c 2 t : Vec Ideal S1x512x512 .f32) = AttnTerm.blk (V m c main_arg2) (ptB t) (ptI t) :=
  read_blk2 t (V m c main_arg2)

end Cert.KernelIdeal.AttnRun

end
-- ==== Proof.KernelCover.lean ====
/-
  Every index of the two tiled result arrays lies in some grid point's block.  Grid point (b, k) of the [4, 8] grid
  holds, of the [4, 4096, 512] output, rows 512·k … 512·k + 511 of batch b with all 512 features, and, of the
  [4, 4096, 4096] weights, the same rows with all 4096 keys.  So index (b, r, ·) lies in the block of the point
  (b, r / 512): on each axis the block starts at the point's block index times the block's extent.
-/
import proofs.«171919_j36206574306110_2_alg».proof.Proof.Gen.KernelIdeal.Frame
import proofs.«171919_j36206574306110_2_alg».proof.Proof.KernelTerm
import proofs.«171919_j36206574306110_2_alg».proof.Proof.KernelPoint
import Idealize.ShloMosaic.Lib.Pipeline.Value

noncomputable section

namespace Cert.KernelIdeal.AttnRun

open Idealize.ShloMosaic Idealize.ShloMosaic.TcCoe Idealize.SL.Sem Idealize.ShloMosaic.ValueIdx
open Cert.KernelIdeal Cert.KernelIdeal.Gen
open Cert.BlockAttn (tileOf inTile gRow)

/-! ## The output array: blocks [1, 512, 512] of [4, 4096, 512] -/

/-- An index of the output array is in point `t`'s block iff each coordinate is in the block's range on its axis. -/
theorem mem_blk3 (t : Fin cfg0.N) (i : S4x4096x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v0_0).slice (win0_3.rect t)).set ↔ _
  rw [View.set_slice_whole, Rect.mem_set_unit]
  exact Iff.rfl

/-- Every pair (batch, tile number) is some grid point's block index. -/
theorem idx_onto3 : ∀ (b : Fin 4) (k : Fin 8), ∃ t : Fin cfg0.N, win0_3.index t = ![b.val, k.val, 0] :=
  (by decide +kernel : ∀ (b : Fin 4) (k : Fin 8), ∃ t : Fin grid0.N, win0_3.index t = ![b.val, k.val, 0])

/-- Index (b, r, d) of the output lies in the block of the point (b, r / 512). -/
theorem cover3 (i : S4x4096x512.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 512 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 512 ≤ (i 2).val ∧ (i 2).val < win0_3.index t (2 : Fin 3) * 512 + 512
    omega

/-! ## The weights array: blocks [1, 512, 4096] of [4, 4096, 4096] -/

/-- An index of the weights array is in point `t`'s block iff each coordinate is in the block's range on its axis. -/
theorem mem_blk4 (t : Fin cfg0.N) (i : S4x4096x4096.Idx) :
    i ∈ ((cfg0.win 4).blk t).view.set ↔ ∀ a : Fin 3, win0_4.index t a * S1x512x4096.size a ≤ (i a).val
      ∧ (i a).val < win0_4.index t a * S1x512x4096.size a + S1x512x4096.size a := by
  show i ∈ ((View.whole main_v0_1).slice (win0_4.rect t)).set ↔ _
  rw [View.set_slice_whole, Rect.mem_set_unit]
  exact Iff.rfl

/-- Every pair (batch, tile number) is some grid point's block index. -/
theorem idx_onto4 : ∀ (b : Fin 4) (k : Fin 8), ∃ t : Fin cfg0.N, win0_4.index t = ![b.val, k.val, 0] :=
  (by decide +kernel : ∀ (b : Fin 4) (k : Fin 8), ∃ t : Fin grid0.N, win0_4.index t = ![b.val, k.val, 0])

/-- Index (b, r, c) of the weights lies in the block of the point (b, r / 512). -/
theorem cover4 (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 4096 ≤ (i 2).val ∧ (i 2).val < win0_4.index t (2 : Fin 3) * 4096 + 4096
    omega

end Cert.KernelIdeal.AttnRun

end
-- ==== Proof.KernelRun.lean ====
/-
  The idealized kernel program's run with every result array named.

  Each grid point (b, i) of the [4, 8] grid loads tile i of batch b of q, k and v and writes back its [1, 512, 512] block
  of the output array and its [1, 512, 4096] block of the weights array.  What it writes back is tile i of batch b of one
  whole-array function of the argument arrays (the output array `KO`, the weights array `KW`): the output block is the
  body's one whole store; the weights block is the tile's weights in the tile's own 512 columns over a fill of zeros.
  Row r of batch b lies in the block of the point (b, r / 512), so the blocks cover both arrays, and after the run the
  arrays are those functions.  The block mask is computed by the host operations after the region from their own iota
  alone.  The argument arrays are left as they were.
-/
import proofs.«171919_j36206574306110_2_alg».proof.Proof.Gen.KernelIdeal.Frame
import proofs.«171919_j36206574306110_2_alg».proof.Proof.KernelTerm
import proofs.«171919_j36206574306110_2_alg».proof.Proof.KernelPieces
import proofs.«171919_j36206574306110_2_alg».proof.Proof.KernelPoint
import proofs.«171919_j36206574306110_2_alg».proof.Proof.KernelTail
import proofs.«171919_j36206574306110_2_alg».proof.Proof.KernelBlocks
import proofs.«171919_j36206574306110_2_alg».proof.Proof.KernelCover
import Idealize.ShloMosaic.Lib.Pipeline.Value
import Idealize.ShloMosaic.Lib.Tactic

noncomputable section

namespace Cert.KernelIdeal.AttnRun

open Idealize.ShloMosaic Idealize.ShloMosaic.TcCoe Idealize.SL.Sem Idealize.ShloMosaic.ValueIdx
open Idealize.ShloMosaic.Pipeline (Dat)
open Cert.KernelIdeal Cert.KernelIdeal.Gen
open Cert.BlockAttn (tileOf inTile gRow)

/-- Row r of tile i lies in tile i, -/
theorem tileOf_gRow (i : Fin 8) (r : Fin 512) : tileOf (gRow i r) = i :=
  Fin.ext (by have := r.isLt; simp only [tileOf, gRow]; omega)

/-- at position r. -/
theorem inTile_gRow (i : Fin 8) (r : Fin 512) : inTile (gRow i r) = r :=
  Fin.ext (by have := r.isLt; simp only [inTile, gRow]; omega)

/-- Tile i of batch b of the output array is the body's output block of tiles i of batch b of q, k, v. -/
theorem blk_KO (q k v : FVec Ideal S4x4096x512 .f32) (b : Fin 4) (i : Fin 8) :
    AttnTerm.blk (AttnTerm.KO q k v) b i
      = k0_pay2 (F := Ideal) (k0_pay3 (F := Ideal) (AttnTerm.blk v b i))
          (AttnTerm.att (AttnTerm.blk q b i) (AttnTerm.blk k b i)) := by
  funext y
  obtain ⟨y0, y1, y2, rfl⟩ : ∃ (y0 : Fin 1) (y1 : Fin 512) (y2 : Fin 512), y = ix3 y0 y1 y2 := ⟨y 0, y 1, y 2, eq_ix3 y⟩
  obtain rfl : y0 = 0 := Subsingleton.elim _ _
  show AttnTerm.ko q k v b (gRow i y1) y2 = _
  unfold AttnTerm.ko
  rw [tileOf_gRow, inTile_gRow]

/-- Tile i of batch b of the weights array is the body's weights block of tiles i of batch b of q, k: the tile's
    weights in the tile's own 512 columns, the fill in the others. -/
theorem blkW_KW (q k : FVec Ideal S4x4096x512 .f32) (b : Fin 4) (i : Fin 8) (ci : grid0.Coords) (hci : (ci 1).val = i.val) :
    blkW (AttnTerm.KW q k) b i
      = View.canon (pieces4 ci (k0_pay1 (F := Ideal) (AttnTerm.att (AttnTerm.blk q b i) (AttnTerm.blk k b i)))
          (k0_pay7 (F := Ideal))) := by
  funext y
  obtain ⟨y0, r, cc, rfl⟩ : ∃ (y0 : Fin 1) (r : Fin 512) (cc : Fin 4096), y = ix3 y0 r cc := ⟨y 0, y 1, y 2, eq_ix3 y⟩
  obtain rfl : y0 = 0 := Subsingleton.elim _ _
  show AttnTerm.kw q k b (gRow i r) cc = _
  unfold AttnTerm.kw
  rw [tileOf_gRow, inTile_gRow]
  have hg : (gRow i r).val / 512 = i.val := by have := r.isLt; simp only [gRow]; omega
  by_cases hc : cc.val / 512 = i.val
  · rw [if_pos (hc.trans hg.symm)]
    exact (canon4_in ci _ _ r (inTile cc) cc (by simp only [inTile]; rw [hci]; omega)).symm
  · rw [if_neg (fun h => hc (h.trans hg))]
    exact (canon4_out ci _ _ r cc (by rw [hci]; exact hc)).symm

variable (m : (ℓ : Loc nD τ sig) → Buf (Elt Ideal) ℓ) (ρ : Dev nD → PrngReg)

/-- What the body leaves in the output block at grid point t, over the point's input blocks. -/
theorem outs3 (c : Dev nD) (t : Fin cfg0.N) :
    (outsAt0 m c t).1 = k0_pay2 (F := Ideal) (k0_pay3 (F := Ideal) (iblk m c 2 t)) (AttnTerm.att (iblk m c 0 t) (iblk m c 1 t)) := by
  unfold outsAt0
  dsimp only
  exact out3_eq c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

/-- What the body leaves in the weights block at grid point t, over the point's input blocks. -/
theorem outs4 (c : Dev nD) (t : Fin cfg0.N) :
    (outsAt0 m c t).2 = View.canon (pieces4 (grid0.coords t) (k0_pay1 (F := Ideal) (AttnTerm.att (iblk m c 0 t) (iblk m c 1 t))) (k0_pay7 (F := Ideal))) := by
  unfold outsAt0
  dsimp only
  exact out4_canon c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

/-- What grid point t writes back to the output array is its tile of the output as a function of q, k, v. -/
theorem flushed3_eq (c : Dev nD) (t : Fin cfg0.N) :
    (dats m 0 c).flushed 3 t = ((cfg0.win 3).blk t).view.read (Elt Ideal)
      (AttnTerm.KO (V m c main_arg0) (V m c main_arg1) (V m c main_arg2)) := by
  show (cfg0.win 3).cut (grid0.coords t) ((dats m 0 c).after 3 t) = _
  rw [after0_3, outs3 m c t, iblk0_eq m c t, iblk1_eq m c t, iblk2_eq m c t]
  exact ((read_blk3 t _).trans (blk_KO _ _ _ _ _)).symm

/-- What grid point t writes back to the weights array is its tile of the weights as a function of q, k. -/
theorem flushed4_eq (c : Dev nD) (t : Fin cfg0.N) :
    (dats m 0 c).flushed 4 t = ((cfg0.win 4).blk t).view.read (Elt Ideal)
      (AttnTerm.KW (V m c main_arg0) (V m c main_arg1)) := by
  show (cfg0.win 4).cut (grid0.coords t) ((dats m 0 c).after 4 t) = _
  rw [after0_4, outs4 m c t, iblk0_eq m c t, iblk1_eq m c t]
  exact ((read_blk4 t _).trans (blkW_KW _ _ (ptB t) (ptI t) (grid0.coords t) rfl)).symm

/-- The output array after the run. -/
theorem final3 (c : Dev nD) : (dats m 0 c).arrAt 3 cfg0.N
    = AttnTerm.KO (m ((c.tc : Thread nD τ).loc main_arg0)) (m ((c.tc : Thread nD τ).loc main_arg1)) (m ((c.tc : Thread nD τ).loc main_arg2)) :=
  (dats m 0 c).arrAt_eq_of_cover 3 _ (fun t _ => flushed3_eq m c t) cover3

/-- The weights array after the run. -/
theorem final4 (c : Dev nD) : (dats m 0 c).arrAt 4 cfg0.N
    = AttnTerm.KW (m ((c.tc : Thread nD τ).loc main_arg0)) (m ((c.tc : Thread nD τ).loc main_arg1)) :=
  (dats m 0 c).arrAt_eq_of_cover 4 _ (fun t _ => flushed4_eq m c t) cover4

/-- The mask's buffer is no array of the region. -/
theorem v7_rest : main_v7 ∈ Pipeline.restRefs sig cfg0.spec :=
  Pipeline.mem_restRefs_of main_v7 rfl (by decide)

/-- The mask after the host operations that follow the region. -/
theorem tail7 (c : Dev nD) :
    Pipeline.afterTail₀ cfgs (dats m) 0 (V0 m) [hostOps1, hostOps1_1, hostOps1_2] c main_v7 = AttnTerm.KM := by
  unfold Pipeline.afterTail₀
  exact AttnTail.mask_after _

/-- The idealized kernel program's run, every result array named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = Cert.KernelIdeal.AttnTerm.KO (m ((c.tc : Thread nD τ).loc main_arg0)) (m ((c.tc : Thread nD τ).loc main_arg1)) (m ((c.tc : Thread nD τ).loc main_arg2))
      ∧ r.2.mem ((c.tc : Thread nD τ).loc main_v0_1) = Cert.KernelIdeal.AttnTerm.KW (m ((c.tc : Thread nD τ).loc main_arg0)) (m ((c.tc : Thread nD τ).loc main_arg1))
      ∧ r.2.mem ((c.tc : Thread nD τ).loc main_v7) = Cert.KernelIdeal.AttnTerm.KM
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun r h c =>
    ⟨((h c).1 3).trans (final3 m c),
     ((h c).1 4).trans (final4 m c),
     ((h c).2 main_v7 v7_rest).trans (tail7 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.AttnRun

end
-- ==== Proof.RefTerm.lean ====
/-
  The reference program's three results as pure terms of its argument arrays: its host operations composed in the order
  it applies them.  The scores are the batched product of q and k over the feature axis times the scale; the mask is
  broadcast over the batch and selects the score or -inf; the softmax takes the row maximum (a maximum-reduce from -inf,
  then once more against -inf), subtracts it, exponentiates, sums the row from zero and divides; the output is the batched
  product of the weights and v over the key axis.
-/
import proofs.«171919_j36206574306110_2_alg».proof.ReferenceIdeal
import proofs.«171919_j36206574306110_2_alg».proof.Proof.Spec

noncomputable section

namespace Cert.ReferenceIdeal.AttnTerm

open Idealize.ShloMosaic Cert.ReferenceIdeal

variable [Facts]
open Facts₀ Facts

/-- The block mask, [4096, 4096]. -/
def mask : IVec S4096x4096 1 :=
  Cert.BlockAttn.blockMask bcast_S_S4096 bcast_S4096_S4096x1_0 bcast_S4096_S1x4096_1 bcast_S4096x1_S4096x4096_0_1
    bcast_S1x4096_S4096x4096_0_1

/-- The scaled scores, [4, 4096, 4096]. -/
def scores (q k : FVec Ideal S4x4096x512 .f32) : FVec Ideal S4x4096x4096 .f32 :=
  mulf (Host.dotGeneral (F := Ideal) dot_S4x4096x512_S4x4096x512_S4x4096x4096_2_2_1_1_0_0 none q k)
    (broadcastInDim S4x4096x4096 ![] bcast_S_S4x4096x4096 (constant (F := Ideal) S_ .f32 0x3D3504F3#32))

/-- The scores with -inf outside the blocks. -/
def maskedScores (q k : FVec Ideal S4x4096x512 .f32) : FVec Ideal S4x4096x4096 .f32 :=
  select
    (broadcastInDim S4x4096x4096 ![0, 1, 2] bcast_S1x4096x4096_S4x4096x4096_0_1_2
      (broadcastInDim S1x4096x4096 ![1, 2] bcast_S4096x4096_S1x4096x4096_1_2 mask))
    (scores q k)
    (broadcastInDim S4x4096x4096 ![] bcast_S_S4x4096x4096 (id (constant (F := Ideal) S_ .f32 0xFF800000#32)))

/-- The row maxima, [4, 4096]. -/
def rowMax (q k : FVec Ideal S4x4096x512 .f32) : FVec Ideal S4x4096 .f32 :=
  maximumf (broadcastInDim S4x4096 ![] bcast_S_S4x4096 (constant (F := Ideal) S_ .f32 0xFF800000#32))
    (Host.reduce FloatOps.maximumf (maskedScores q k) (constant (F := Ideal) S_ .f32 0xFF800000#32)
      reducesTo_S4x4096x4096_S4x4096_d2 h_S_)

/-- The exponentials of the masked scores less their row maximum. -/
def expo (q k : FVec Ideal S4x4096x512 .f32) : FVec Ideal S4x4096x4096 .f32 :=
  Host.exp (F := Ideal) (subf (maskedScores q k)
    (broadcastInDim S4x4096x4096 ![0, 1, 2] bcast_S4x4096x1_S4x4096x4096_0_1_2
      (broadcastInDim S4x4096x1 ![0, 1] bcast_S4x4096_S4x4096x1_0_1 (rowMax q k))))

/-- The row sums, [4, 4096]. -/
def rowSum (q k : FVec Ideal S4x4096x512 .f32) : FVec Ideal S4x4096 .f32 :=
  Host.reduceAdd (F := Ideal) (expo q k) (constant (F := Ideal) S_ .f32 0x00000000#32) reducesTo_S4x4096x4096_S4x4096_d2 h_S_

/-- The attention weights, the second result. -/
def W (q k : FVec Ideal S4x4096x512 .f32) : FVec Ideal S4x4096x4096 .f32 :=
  Host.divf (F := Ideal) (expo q k)
    (broadcastInDim S4x4096x4096 ![0, 1, 2] bcast_S4x4096x1_S4x4096x4096_0_1_2
      (broadcastInDim S4x4096x1 ![0, 1] bcast_S4x4096_S4x4096x1_0_1 (rowSum q k)))

/-- The output, the first result. -/
def O (q k v : FVec Ideal S4x4096x512 .f32) : FVec Ideal S4x4096x512 .f32 :=
  Host.dotGeneral (F := Ideal) dot_S4x4096x4096_S4x4096x512_S4x4096x512_2_1_1_2_0_0 none (W q k) v

end Cert.ReferenceIdeal.AttnTerm

end
-- ==== Proof.RefRun.lean ====
/-
  The run of the reference program: its host operations as one straight line, the three outlined functions
  (the floor quotient, its select, the masked select) written out at their call sites over the buffers each
  call names, and what every weakly fair execution of that line leaves in the three result buffers — the
  operations composed in program order over the arguments' launch contents — with the arguments unchanged.
-/
import proofs.«171919_j36206574306110_2_alg».proof.Proof.Gen.ReferenceIdeal
import proofs.«171919_j36206574306110_2_alg».proof.Proof.RefTerm
import Idealize.ShloMosaic.Lib.StableHlo.Run

noncomputable section

namespace Cert.ReferenceIdeal.AttnRun

open Cert.ReferenceIdeal Idealize.ShloMosaic Idealize.ShloMosaic.TcCoe Idealize.SL.Sem Idealize.ShloMosaic.StableHlo
open Facts₀ Facts

variable {F : FTy → Type} [FloatOps F]

/-- The program's 49 operations, in order: the iota and the constant 64; the floor quotient's seventeen (the
    constant converted to its own type and broadcast, the truncated quotient, the two signs and their comparison,
    the remainder and its comparison with zero, the conjunction, the quotient less one, the select); the four
    broadcasts and the comparison that make the mask; the scores; the masked select's four; the softmax; the
    output product. -/
abbrev ops : List (HloOp τ sig (Elt F)) :=
  [ StableHlo.nullary main_v0 (iotaInDim S4096 32 0),
    StableHlo.nullary main_c (constantI S_ 32 64#32),
    StableHlo.TRef.unary (.of main_c : StableHlo.TRef sig ⟨S_, .i32⟩) main_call0.v0 id,
    StableHlo.TRef.unary main_call0.v0 main_call0.v1 (broadcastInDim S4096 ![] bcast_S_S4096),
    StableHlo.TRef.binary (.of main_v0 : StableHlo.TRef sig ⟨S4096, .i32⟩) main_call0.v1 main_call0.v2 Host.divsi,
    StableHlo.TRef.unary (.of main_v0 : StableHlo.TRef sig ⟨S4096, .i32⟩) main_call0.v3 signi,
    StableHlo.TRef.unary main_call0.v0 main_call0.v4 signi,
    StableHlo.TRef.unary main_call0.v4 main_call0.v5 (broadcastInDim S4096 ![] bcast_S_S4096),
    StableHlo.TRef.binary main_call0.v3 main_call0.v5 main_call0.v6 (cmpi .ne),
    StableHlo.TRef.unary main_call0.v0 main_call0.v7 (broadcastInDim S4096 ![] bcast_S_S4096),
    StableHlo.TRef.binary (.of main_v0 : StableHlo.TRef sig ⟨S4096, .i32⟩) main_call0.v7 main_call0.v8 Host.remsi,
    StableHlo.TRef.nullary main_call0.c (constantI S_ 32 0#32),
    StableHlo.TRef.unary main_call0.c main_call0.v9 (broadcastInDim S4096 ![] bcast_S_S4096),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S4096 ![] bcast_S_S4096),
    StableHlo.TRef.binary main_call0.v2 main_call0.v12 main_call0.v13 subi,
    StableHlo.TRef.ternary main_call0.v11 main_call0.v13 main_call0.v2 main_call0.call0.v0 select,
    StableHlo.unary main_v1 main_v2 (broadcastInDim S4096x1 ![0] bcast_S4096_S4096x1_0 : (⟨S4096, .i32⟩ : BufTy).Contents (Elt F) → (⟨S4096x1, .i32⟩ : BufTy).Contents (Elt F)),
    StableHlo.unary main_v1 main_v3 (broadcastInDim S1x4096 ![1] bcast_S4096_S1x4096_1 : (⟨S4096, .i32⟩ : BufTy).Contents (Elt F) → (⟨S1x4096, .i32⟩ : BufTy).Contents (Elt F)),
    StableHlo.unary main_v2 main_v4 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v3 main_v5 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v4 main_v5 main_v6 (cmpi .eq : (⟨S4096x4096, .i32⟩ : BufTy).Contents (Elt F) → (⟨S4096x4096, .i32⟩ : BufTy).Contents (Elt F) → (⟨S4096x4096, .i1⟩ : BufTy).Contents (Elt F)),
    StableHlo.binary main_arg0 main_arg1 main_v7 ((fun l r => Host.dotGeneral dot_S4x4096x512_S4x4096x512_S4x4096x4096_2_2_1_1_0_0 none l r) : (⟨S4x4096x512, .f32⟩ : BufTy).Contents (Elt F) → (⟨S4x4096x512, .f32⟩ : BufTy).Contents (Elt F) → (⟨S4x4096x4096, .f32⟩ : BufTy).Contents (Elt F)),
    StableHlo.nullary main_cst (constant S_ .f32 0x3D3504F3#32),
    StableHlo.unary main_cst main_v8 (broadcastInDim S4x4096x4096 ![] bcast_S_S4x4096x4096 : (⟨S_, .f32⟩ : BufTy).Contents (Elt F) → (⟨S4x4096x4096, .f32⟩ : BufTy).Contents (Elt F)),
    StableHlo.binary main_v7 main_v8 main_v9 (mulf : (⟨S4x4096x4096, .f32⟩ : BufTy).Contents (Elt F) → (⟨S4x4096x4096, .f32⟩ : BufTy).Contents (Elt F) → (⟨S4x4096x4096, .f32⟩ : BufTy).Contents (Elt F)),
    StableHlo.unary main_v6 main_v10 (broadcastInDim S1x4096x4096 ![1, 2] bcast_S4096x4096_S1x4096x4096_1_2 : (⟨S4096x4096, .i1⟩ : BufTy).Contents (Elt F) → (⟨S1x4096x4096, .i1⟩ : BufTy).Contents (Elt F)),
    StableHlo.nullary main_cst_0 (constant S_ .f32 0xFF800000#32),
    StableHlo.TRef.unary (.of main_cst_0 : StableHlo.TRef sig ⟨S_, .f32⟩) main_call1.v0 id,
    StableHlo.TRef.unary (.of main_v10 : StableHlo.TRef sig ⟨S1x4096x4096, .i1⟩) main_call1.v1 (broadcastInDim S4x4096x4096 ![0, 1, 2] bcast_S1x4096x4096_S4x4096x4096_0_1_2),
    StableHlo.TRef.unary main_call1.v0 main_call1.v2 (broadcastInDim S4x4096x4096 ![] bcast_S_S4x4096x4096),
    StableHlo.TRef.ternary main_call1.v1 (.of main_v9 : StableHlo.TRef sig ⟨S4x4096x4096, .f32⟩) main_call1.v2 main_call1.v3 select,
    StableHlo.nullary main_cst_1 (constant S_ .f32 0xFF800000#32),
    StableHlo.binary main_v11 main_cst_1 main_v12 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_cst_2 (constant S_ .f32 0xFF800000#32),
    StableHlo.unary main_cst_2 main_v13 (broadcastInDim S4x4096 ![] bcast_S_S4x4096 : (⟨S_, .f32⟩ : BufTy).Contents (Elt F) → (⟨S4x4096, .f32⟩ : BufTy).Contents (Elt F)),
    StableHlo.binary main_v13 main_v12 main_v14 (maximumf : (⟨S4x4096, .f32⟩ : BufTy).Contents (Elt F) → (⟨S4x4096, .f32⟩ : BufTy).Contents (Elt F) → (⟨S4x4096, .f32⟩ : BufTy).Contents (Elt F)),
    StableHlo.unary main_v14 main_v15 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v15 main_v16 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v11 main_v16 main_v17 (subf : (⟨S4x4096x4096, .f32⟩ : BufTy).Contents (Elt F) → (⟨S4x4096x4096, .f32⟩ : BufTy).Contents (Elt F) → (⟨S4x4096x4096, .f32⟩ : BufTy).Contents (Elt F)),
    StableHlo.unary main_v17 main_v18 (Host.exp : (⟨S4x4096x4096, .f32⟩ : BufTy).Contents (Elt F) → (⟨S4x4096x4096, .f32⟩ : BufTy).Contents (Elt F)),
    StableHlo.nullary main_cst_3 (constant S_ .f32 0x00000000#32),
    StableHlo.binary main_v18 main_cst_3 main_v19 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.unary main_v19 main_v20 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v20 main_v21 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v18 main_v21 main_v22 (Host.divf : (⟨S4x4096x4096, .f32⟩ : BufTy).Contents (Elt F) → (⟨S4x4096x4096, .f32⟩ : BufTy).Contents (Elt F) → (⟨S4x4096x4096, .f32⟩ : BufTy).Contents (Elt F)),
    StableHlo.binary main_v22 main_arg2 main_v23 ((fun l r => Host.dotGeneral dot_S4x4096x4096_S4x4096x512_S4x4096x512_2_1_1_2_0_0 none l r) : (⟨S4x4096x4096, .f32⟩ : BufTy).Contents (Elt F) → (⟨S4x4096x512, .f32⟩ : BufTy).Contents (Elt F) → (⟨S4x4096x512, .f32⟩ : BufTy).Contents (Elt F)) ]

-- forty-nine binds re-associated, one rewrite under the chain per statement
set_option maxRecDepth 4096 in
/-- The program is that straight line: the three functions unfolded at their calls, the sequencing reassociated. -/
theorem main_eq (c : Dev nD) : main (F := F) c = seq ops := by
  simp only [main, fn_floor_divide.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., unary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., unary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub ..⟩

/-- Every weakly fair execution of the program terminates, each buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line leaves in the result buffers

Each is the fold read at one buffer: an operation's result at its own buffer is its function of its operands'
contents, at any other buffer what was there; the typed references' transports are the identity at these literal
references, and a conversion to the same type is the identity, so what is left is the composed term. -/

/-- The mask buffer holds the block mask. -/
theorem v6_eq (V : Valuation τ sig (Elt Ideal)) :
    after (ops (F := Ideal)) V (main_v6 : DevRef τ sig) = Cert.ReferenceIdeal.AttnTerm.mask := by
  after_results_simp
  rfl

/-- The weights buffer holds the softmax of the masked scaled scores. -/
theorem v22_eq (V : Valuation τ sig (Elt Ideal)) :
    after (ops (F := Ideal)) V (main_v22 : DevRef τ sig)
      = Cert.ReferenceIdeal.AttnTerm.W (V (main_arg0 : DevRef τ sig)) (V (main_arg1 : DevRef τ sig)) := by
  after_results_simp
  rfl

/-- The output buffer holds the product of the weights and the values. -/
theorem v23_eq (V : Valuation τ sig (Elt Ideal)) :
    after (ops (F := Ideal)) V (main_v23 : DevRef τ sig)
      = Cert.ReferenceIdeal.AttnTerm.O (V (main_arg0 : DevRef τ sig)) (V (main_arg1 : DevRef τ sig)) (V (main_arg2 : DevRef τ sig)) := by
  after_results_simp
  rfl

/-- No operation writes an argument. -/
theorem arg0_eq (V : Valuation τ sig (Elt F)) : after (ops (F := F)) V (main_arg0 : DevRef τ sig) = V (main_arg0 : DevRef τ sig) := by
  after_results_simp
theorem arg1_eq (V : Valuation τ sig (Elt F)) : after (ops (F := F)) V (main_arg1 : DevRef τ sig) = V (main_arg1 : DevRef τ sig) := by
  after_results_simp
theorem arg2_eq (V : Valuation τ sig (Elt F)) : after (ops (F := F)) V (main_arg2 : DevRef τ sig) = V (main_arg2 : DevRef τ sig) := by
  after_results_simp

/-- From any memory with zero counters, every weakly fair execution of the reference program terminates with the
    output, the weights and the mask at their terms of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = Cert.ReferenceIdeal.AttnTerm.O (m ((c.tc : Thread nD τ).loc main_arg0)) (m ((c.tc : Thread nD τ).loc main_arg1)) (m ((c.tc : Thread nD τ).loc main_arg2))
      ∧ r.2.mem ((c.tc : Thread nD τ).loc main_v22) = Cert.ReferenceIdeal.AttnTerm.W (m ((c.tc : Thread nD τ).loc main_arg0)) (m ((c.tc : Thread nD τ).loc main_arg1))
      ∧ r.2.mem ((c.tc : Thread nD τ).loc main_v6) = Cert.ReferenceIdeal.AttnTerm.mask
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun _ h c => ⟨(h c main_v23).trans (v23_eq _), (h c main_v22).trans (v22_eq _),
      (h c main_v6).trans (v6_eq _), (h c main_arg0).trans (arg0_eq _), (h c main_arg1).trans (arg1_eq _),
      (h c main_arg2).trans (arg2_eq _)⟩)
    (run_main m ρ)

end Cert.ReferenceIdeal.AttnRun

end
-- ==== Proof.BlockMask.lean ====
/-
  The block mask read at an entry.  Row n of the [4096] block-number vector is ⌊n / 64⌋: for 0 ≤ n < 4096 the truncated
  quotient of n by 64 is already the floor (both operands are nonnegative, so the correction for differing signs never
  applies) — checked entry by entry over the 4096 values of n on 32-bit words.  Broadcast down a column and along a row
  and compared, entry (r, c) of the mask says whether r and c lie in the same 64-wide block; two block numbers below
  2^32 are equal as words exactly when they are equal as numbers.
-/
import proofs.«171919_j36206574306110_2_alg».proof.Proof.Spec
import Idealize.ShloMosaic.Lib.Pipeline.Value

noncomputable section

namespace Cert.BlockAttn

open Idealize.ShloMosaic Idealize.ShloMosaic.ValueIdx

/-- The sign of a 32-bit word: 0, -1 or 1. -/
def sgn32 (x : BitVec 32) : BitVec 32 := if x = 0 then 0 else if x.msb then -1 else 1

/-- The floor quotient by 64 on one word, as the chain of operations computes it. -/
def fd64 (x : BitVec 32) : BitVec 32 :=
  Scalar.select
    (IntOp.andi (IntOp.cmpi .ne (sgn32 x) (sgn32 64#32)) (IntOp.cmpi .ne (IntOp.remsi .host x 64#32) 0#32))
    (IntOp.subi (IntOp.divsi .host x 64#32) 1#32) (IntOp.divsi .host x 64#32)

set_option maxRecDepth 100000 in
/-- On 0 … 4095 it is the floor quotient. -/
theorem fd64_eq : ∀ n : Fin 4096, fd64 (BitVec.ofNat 32 n.val) = BitVec.ofNat 32 (n.val / 64) := by decide +kernel

/-- Entry n of the block-number vector. -/
theorem blockIdx_apply (hb : S0.BroadcastsInDim SV (![] : Fin 0 → Fin SV.rank)) (n : Fin 4096) :
    blockIdx hb (ix1 n) = BitVec.ofNat 32 (n.val / 64) := by
  rw [← fd64_eq n]
  unfold blockIdx fd64 sgn32
  rfl

/-- Two numbers below 64 are equal as 32-bit words exactly when they are equal. -/
theorem cmpi_eq_ofNat (a b : Nat) (ha : a < 64) (hb : b < 64) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun he => h (by
      have := congrArg BitVec.toNat he
      rw [BitVec.toNat_ofNat, BitVec.toNat_ofNat, Nat.mod_eq_of_lt (by omega), Nat.mod_eq_of_lt (by omega)] at this
      exact this)
    have hbeq : (BitVec.ofNat 32 a == BitVec.ofNat 32 b) = false := beq_eq_false_iff_ne.mpr hne
    show BitVec.ofBool (BitVec.ofNat 32 a == BitVec.ofNat 32 b) = 0#1
    rw [hbeq]; rfl

/-- Entry (r, c) of the mask is 1 exactly when r and c lie in the same 64-wide block. -/
theorem blockMask_apply (hb : S0.BroadcastsInDim SV (![] : Fin 0 → Fin SV.rank))
    (hc : SV.BroadcastsInDim SC (![0] : Fin 1 → Fin SC.rank)) (hr : SV.BroadcastsInDim SR (![1] : Fin 1 → Fin SR.rank))
    (hcm : SC.BroadcastsInDim SM (![0, 1] : Fin 2 → Fin SM.rank)) (hrm : SR.BroadcastsInDim SM (![0, 1] : Fin 2 → Fin SM.rank))
    (r c : Fin 4096) :
    blockMask hb hc hr hcm hrm (ix2 r c) = if r.val / 64 = c.val / 64 then 1#1 else 0#1 := by
  have hcol : broadcastInDim SM ![0, 1] hcm (broadcastInDim SC ![0] hc (blockIdx hb)) (ix2 r c) = blockIdx hb (ix1 r) :=
    (broadcastInDim_apply _ hcm _ (ix2 r c) (ix2 r (0 : Fin 1)) (fun a => by
      match a with | ⟨0, _⟩ => rfl | ⟨1, _⟩ => rfl)).trans
    (broadcastInDim_apply _ hc _ (ix2 r (0 : Fin 1)) (ix1 r) (fun a => by match a with | ⟨0, _⟩ => rfl))
  have hrow : broadcastInDim SM ![0, 1] hrm (broadcastInDim SR ![1] hr (blockIdx hb)) (ix2 r c) = blockIdx hb (ix1 c) :=
    (broadcastInDim_apply _ hrm _ (ix2 r c) (ix2 (0 : Fin 1) c) (fun a => by
      match a with | ⟨0, _⟩ => rfl | ⟨1, _⟩ => rfl)).trans
    (broadcastInDim_apply _ hr _ (ix2 (0 : Fin 1) c) (ix1 c) (fun a => by match a with | ⟨0, _⟩ => rfl))
  show IntOp.cmpi .eq (broadcastInDim SM ![0, 1] hcm (broadcastInDim SC ![0] hc (blockIdx hb)) (ix2 r c))
      (broadcastInDim SM ![0, 1] hrm (broadcastInDim SR ![1] hr (blockIdx hb)) (ix2 r c)) = _
  rw [hcol, hrow, blockIdx_apply, blockIdx_apply]
  exact cmpi_eq_ofNat _ _ (by have := r.isLt; omega) (by have := c.isLt; omega)

/-- The mask both programs compute is the block mask. -/
theorem blockMask_eq (hb : S0.BroadcastsInDim SV (![] : Fin 0 → Fin SV.rank))
    (hc : SV.BroadcastsInDim SC (![0] : Fin 1 → Fin SC.rank)) (hr : SV.BroadcastsInDim SR (![1] : Fin 1 → Fin SR.rank))
    (hcm : SC.BroadcastsInDim SM (![0, 1] : Fin 2 → Fin SM.rank)) (hrm : SR.BroadcastsInDim SM (![0, 1] : Fin 2 → Fin SM.rank)) :
    blockMask hb hc hr hcm hrm = M := by
  funext j
  obtain ⟨r, c, rfl⟩ : ∃ (r : Fin 4096) (c : Fin 4096), j = ix2 r c := ⟨j 0, j 1, eq_ix2 j⟩
  rw [blockMask_apply]
  rfl

end Cert.BlockAttn

end
-- ==== Proof.RefValue.lean ====
/-
  The reference's composed terms read at an index.  Each stage of the reference (the batched product of q and k over the
  feature axis times the scale; the mask's select against -inf; the row maximum; the exponential of the difference; the
  row sum; the quotient; the batched product with v over the key axis) is read at explicit coordinates (b, r, c) and is
  the corresponding function of the row-wise specification.  Every step is a reading of an operation at an index: the
  product at an index is the sum over the contracted coordinate, a broadcast reads its operand at the kept coordinates,
  a one-axis reduction is the fold (or the sum) over that axis's coordinates.  No algebraic law is used.
-/
import proofs.«171919_j36206574306110_2_alg».proof.Proof.RefTerm
import proofs.«171919_j36206574306110_2_alg».proof.Proof.BlockMask
import proofs.«171919_j36206574306110_2_alg».proof.Proof.Gen.ReferenceIdeal
import Idealize.ShloMosaic.Lib.ValueIdx
import Idealize.ShloMosaic.Lib.IdealHost
import Idealize.ShloMosaic.Lib.StackMember
import Idealize.ShloMosaic.Lib.Pipeline.Value
import Idealize.ShloMosaic.PureOps.Ideal.Laws
import Idealize.ShloMosaic.PureOps.Reduce

noncomputable section

open scoped BigOperators

namespace Cert.ReferenceIdeal.AttnValue

open Idealize.ShloMosaic Idealize.ShloMosaic.ValueIdx Cert.ReferenceIdeal
open Facts₀ Facts

/-! ## The scores -/

/-- The batched product of q and k over the feature axis, at (b, r, c): the sum over the feature coordinate d of
    q[b, r, d] · k[b, c, d]. -/
theorem dot_qk_apply (q k : FVec Ideal S4x4096x512 .f32) (b : Fin 4) (r c : Fin 4096) :
    Host.dotGeneral (F := Ideal) dot_S4x4096x512_S4x4096x512_S4x4096x4096_2_2_1_1_0_0 none q k (ix3 b r c)
      = ∑ d : Fin 512, q (ix3 b r d) * k (ix3 b c d) := by
  show FloatOps.dotGeneral _ none _ q k (ix3 b r c) = _
  rw [Ideal.dotGeneral_apply,
    ← Equiv.sum_comp (contrEquiv1 dot_S4x4096x512_S4x4096x512_S4x4096x4096_2_2_1_1_0_0 512 rfl rfl).symm]
  refine Finset.sum_congr rfl fun d _ => ?_
  have c3 := contrEquiv1_symm_val dot_S4x4096x512_S4x4096x512_S4x4096x4096_2_2_1_1_0_0 512 rfl rfl d
  have l3 : dot_S4x4096x512_S4x4096x512_S4x4096x4096_2_2_1_1_0_0.lhsIdx (ix3 b r c)
      ((contrEquiv1 _ 512 rfl rfl).symm d) = ix3 b r d := by
    funext ax; apply Fin.ext
    match ax with
    | ⟨0, _⟩ => simp [DotDims.lhsIdx, dot_S4x4096x512_S4x4096x512_S4x4096x4096_2_2_1_1_0_0]; rfl
    | ⟨1, _⟩ => simp [DotDims.lhsIdx, dot_S4x4096x512_S4x4096x512_S4x4096x4096_2_2_1_1_0_0]; rfl
    | ⟨2, _⟩ => simp [DotDims.lhsIdx, dot_S4x4096x512_S4x4096x512_S4x4096x4096_2_2_1_1_0_0]; exact c3
  have r3 : dot_S4x4096x512_S4x4096x512_S4x4096x4096_2_2_1_1_0_0.rhsIdx (ix3 b r c)
      ((contrEquiv1 _ 512 rfl rfl).symm d) = ix3 b c d := by
    funext ax; apply Fin.ext
    match ax with
    | ⟨0, _⟩ => simp [DotDims.rhsIdx, dot_S4x4096x512_S4x4096x512_S4x4096x4096_2_2_1_1_0_0]; rfl
    | ⟨1, _⟩ => simp [DotDims.rhsIdx, dot_S4x4096x512_S4x4096x512_S4x4096x4096_2_2_1_1_0_0]; rfl
    | ⟨2, _⟩ => simp [DotDims.rhsIdx, dot_S4x4096x512_S4x4096x512_S4x4096x4096_2_2_1_1_0_0]; exact c3
  rw [l3, r3]

/-- A scalar broadcast over the scores' shape reads the scalar. -/
theorem scalar_apply (w : BitVec 32) (j : S4x4096x4096.Idx) :
    broadcastInDim S4x4096x4096 ![] bcast_S_S4x4096x4096 (constant (F := Ideal) S_ .f32 w) j = Ideal.ofBits .f32 w :=
  broadcastInDim_scalar_apply _ _ j

/-- The scaled scores at (b, r, c). -/
theorem scores_apply (q k : FVec Ideal S4x4096x512 .f32) (b : Fin 4) (r c : Fin 4096) :
    AttnTerm.scores q k (ix3 b r c) = Cert.BlockAttn.score q k b r c := by
  unfold AttnTerm.scores Cert.BlockAttn.score
  refine (mulf_apply _ _ _).trans ?_
  rw [dot_qk_apply, scalar_apply]

/-! ## The masked scores -/

/-- The f32 word of -inf is the bottom of the extended reals. -/
theorem ofBits_neg_inf : Ideal.ofBits .f32 0xFF800000#32 = (⊥ : EReal) := by simp [Ideal.ofBits, Ideal.ieee]

/-- The mask broadcast over the batch reads the mask at (r, c): the batch coordinate is dropped through the unit axis. -/
theorem maskBroadcast_apply (m : IVec S4096x4096 1) (b : Fin 4) (r c : Fin 4096) :
    broadcastInDim S4x4096x4096 ![0, 1, 2] bcast_S1x4096x4096_S4x4096x4096_0_1_2
      (broadcastInDim S1x4096x4096 ![1, 2] bcast_S4096x4096_S1x4096x4096_1_2 m) (ix3 b r c) = m (ix2 r c) := by
  refine (broadcastInDim_apply _ _ _ (ix3 b r c) (ix3 (0 : Fin 1) r c) (fun a => ?_)).trans ?_
  · match a with
    | ⟨0, _⟩ => rfl
    | ⟨1, _⟩ => rfl
    | ⟨2, _⟩ => rfl
  · refine broadcastInDim_apply _ _ _ (ix3 (0 : Fin 1) r c) (ix2 r c) (fun a => ?_)
    match a with
    | ⟨0, _⟩ => rfl
    | ⟨1, _⟩ => rfl

/-- The mask at (r, c): whether r and c lie in the same 64-wide block. -/
theorem mask_apply (r c : Fin 4096) :
    AttnTerm.mask (ix2 r c) = if r.val / 64 = c.val / 64 then 1#1 else 0#1 := by
  unfold AttnTerm.mask
  exact Cert.BlockAttn.blockMask_apply _ _ _ _ _ r c

/-- The masked scores at (b, r, c): the score inside the block, -inf outside. -/
theorem maskedScores_apply (q k : FVec Ideal S4x4096x512 .f32) (b : Fin 4) (r c : Fin 4096) :
    AttnTerm.maskedScores q k (ix3 b r c) = Cert.BlockAttn.masked q k b r c := by
  unfold AttnTerm.maskedScores Cert.BlockAttn.masked
  refine (select_apply _ _ _ _).trans ?_
  rw [maskBroadcast_apply, mask_apply, scores_apply]
  by_cases h : r.val / 64 = c.val / 64
  · rw [if_pos h, if_pos h, select_one]
  · rw [if_neg h, if_neg h, select_zero]
    exact (scalar_apply _ _).trans ofBits_neg_inf

/-! ## The row maximum -/

/-- Axis 2 of the scores' shape reduces to the [4, 4096] shape. -/
theorem reduces_d2 : S4x4096x4096.Reduces [2] S4x4096 := by decide

/-- The index (b, r) with c inserted on the reduced axis is (b, r, c). -/
theorem lift_ix (b : Fin 4) (r c : Fin 4096) : reduces_d2.lift (ix2 b r) c = ix3 b r c := by
  funext a; apply Fin.ext
  match a with
  | ⟨0, _⟩ => rfl
  | ⟨1, _⟩ => rfl
  | ⟨2, _⟩ => rfl

/-- The row maxima at (b, r): the fold of max from -inf over the row's masked scores. -/
theorem rowMax_apply (q k : FVec Ideal S4x4096x512 .f32) (b : Fin 4) (r : Fin 4096) :
    AttnTerm.rowMax q k (ix2 b r) = Cert.BlockAttn.rowMax q k b r := by
  unfold AttnTerm.rowMax Cert.BlockAttn.rowMax
  refine (maximumf_apply _ _ _).trans ?_
  rw [broadcastInDim_scalar_apply, constant_apply, ofBits_neg_inf, bot_sup_eq,
    Host.reduce_eq_fold_single FloatOps.maximumf _ _ reducesTo_S4x4096x4096_S4x4096_d2 reduces_d2 h_S_]
  have hf : (AttnTerm.maskedScores q k ∘ reduces_d2.lift (ix2 b r))
      = fun c : Fin 4096 => Cert.BlockAttn.masked q k b r c := by
    funext c
    exact (congrArg (AttnTerm.maskedScores q k) (lift_ix b r c)).trans (maskedScores_apply q k b r c)
  rw [hf, constant_apply, ofBits_neg_inf]
  rfl

/-! ## The exponentials, the row sums, the weights -/

/-- A [4, 4096] array broadcast along the key axis (through a trailing unit axis) reads its entry at (b, r). -/
theorem rowBroadcast_apply (x : FVec Ideal S4x4096 .f32) (b : Fin 4) (r c : Fin 4096) :
    broadcastInDim S4x4096x4096 ![0, 1, 2] bcast_S4x4096x1_S4x4096x4096_0_1_2
      (broadcastInDim S4x4096x1 ![0, 1] bcast_S4x4096_S4x4096x1_0_1 x) (ix3 b r c) = x (ix2 b r) := by
  refine (broadcastInDim_apply _ _ _ (ix3 b r c) (ix3 b r (0 : Fin 1)) (fun a => ?_)).trans ?_
  · match a with
    | ⟨0, _⟩ => rfl
    | ⟨1, _⟩ => rfl
    | ⟨2, _⟩ => rfl
  · refine broadcastInDim_apply _ _ _ (ix3 b r (0 : Fin 1)) (ix2 b r) (fun a => ?_)
    match a with
    | ⟨0, _⟩ => rfl
    | ⟨1, _⟩ => rfl

/-- The host's exponential at an index is the extended reals' exponential of the element. -/
theorem hostExp_apply {s : Shape} (x : FVec Ideal s .f32) (i : s.Idx) :
    Host.exp (F := Ideal) x i = Ideal.exp (x i) := rfl

/-- The exponentials at (b, r, c). -/
theorem expo_apply (q k : FVec Ideal S4x4096x512 .f32) (b : Fin 4) (r c : Fin 4096) :
    AttnTerm.expo q k (ix3 b r c) = Cert.BlockAttn.expo q k b r c := by
  unfold AttnTerm.expo Cert.BlockAttn.expo
  refine (hostExp_apply _ _).trans ?_
  rw [subf_apply, rowBroadcast_apply, maskedScores_apply, rowMax_apply]

/-- The row sums at (b, r): the sum from zero over the row's exponentials. -/
theorem rowSum_apply (q k : FVec Ideal S4x4096x512 .f32) (b : Fin 4) (r : Fin 4096) :
    AttnTerm.rowSum q k (ix2 b r) = Cert.BlockAttn.rowSum q k b r := by
  unfold AttnTerm.rowSum Cert.BlockAttn.rowSum
  refine (hostReduceAdd_apply _ _ _ _ _).trans ?_
  rw [Ideal.hostReduceAdd_single reducesTo_S4x4096x4096_S4x4096_d2 reduces_d2, constant_apply, Ideal.ofBits_zero_f32,
    zero_add]
  exact Finset.sum_congr rfl fun c _ => (congrArg (AttnTerm.expo q k) (lift_ix b r c)).trans (expo_apply q k b r c)

/-- The weights at (b, r, c). -/
theorem W_apply (q k : FVec Ideal S4x4096x512 .f32) (b : Fin 4) (r c : Fin 4096) :
    AttnTerm.W q k (ix3 b r c) = Cert.BlockAttn.weight q k b r c := by
  unfold AttnTerm.W Cert.BlockAttn.weight
  refine (hostDivf_apply _ _ _).trans ?_
  rw [rowBroadcast_apply, expo_apply, rowSum_apply]

/-! ## The two results -/

/-- The reference's weights are the specification's. -/
theorem W_eq (q k : FVec Ideal Cert.ReferenceIdeal.S4x4096x512 .f32) :
    Cert.ReferenceIdeal.AttnTerm.W q k = Cert.BlockAttn.W q k := by
  funext j
  obtain ⟨b, r, c, rfl⟩ : ∃ (b : Fin 4) (r : Fin 4096) (c : Fin 4096), j = ix3 b r c := ⟨j 0, j 1, j 2, eq_ix3 j⟩
  exact W_apply q k b r c

/-- The batched product of the weights and v over the key axis, at (b, r, d): the sum over the key c of
    W[b, r, c] · v[b, c, d]. -/
theorem dot_wv_apply (w : FVec Ideal S4x4096x4096 .f32) (v : FVec Ideal S4x4096x512 .f32) (b : Fin 4) (r : Fin 4096)
    (d : Fin 512) :
    Host.dotGeneral (F := Ideal) dot_S4x4096x4096_S4x4096x512_S4x4096x512_2_1_1_2_0_0 none w v (ix3 b r d)
      = ∑ c : Fin 4096, w (ix3 b r c) * v (ix3 b c d) :=
  StackMember.dotGeneral_stack_apply dot_S4x4096x4096_S4x4096x512_S4x4096x512_2_1_1_2_0_0_wf none w v b r d

/-- The reference's output is the specification's. -/
theorem O_eq (q k v : FVec Ideal Cert.ReferenceIdeal.S4x4096x512 .f32) :
    Cert.ReferenceIdeal.AttnTerm.O q k v = Cert.BlockAttn.O q k v := by
  funext j
  obtain ⟨b, r, d, rfl⟩ : ∃ (b : Fin 4) (r : Fin 4096) (d : Fin 512), j = ix3 b r d := ⟨j 0, j 1, j 2, eq_ix3 j⟩
  unfold AttnTerm.O
  refine (dot_wv_apply _ v b r d).trans ?_
  exact Finset.sum_congr rfl fun c _ => congrArg (· * v (ix3 b c d)) (W_apply q k b r c)

end Cert.ReferenceIdeal.AttnValue

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.LibColumnForms.lean ====
/-
  Keepdims column forms read at an index given by coordinates: a vector `[a]` cast to the column `[a, 1]`, a column
  `[a, 1]` cast to the row `[1, a]`, and a column `[a, 1]` broadcast along the lanes to `[a, b]`. Each is the
  library's general lemma for the operation (a shape cast keeps the row-major position; a broadcast reads `0` on the
  operand's unit axes) with both indices written by coordinates, so that it applies to a printed operation by
  unification.
  Two more readings at the extended reals close the file: a lane sum of a matrix into the zero word is, at row `r`, the sum of
  that row's entries; and a square root of a vector is taken element by element.
-/
import Idealize.ShloMosaic.Lib.ValueIdx
import Idealize.ShloMosaic.Lib.Pipeline.Value
import Idealize.ShloMosaic.Lib.ValueLayout
import Idealize.ShloMosaic.PureOps.Ideal.Laws

open scoped BigOperators

namespace Cert.ColumnForms

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along the lanes to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum and a square root at the extended reals -/

/-- A binary32 `add` reduction of an `[a, b]` matrix over its lanes, from the zero word, reads at row `r` the sum of the
    row's `b` entries. The accumulator's side condition is taken as the equation between the two zero words that a
    printed operation carries. -/
theorem multiReduction_add_lanes_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun c => Fin.ext ?_)
  match c with
  | ⟨0, _⟩ => rfl
  | ⟨1, _⟩ => rfl

/-- A square root of a vector at an index is the extended reals' square root of the element. -/
theorem sqrt_apply {s : Shape} {φ : FTy} (x : FVec Ideal s φ) (i : s.Idx) :
    Idealize.ShloMosaic.sqrt x i = Ideal.sqrt (x i) := rfl

end Cert.ColumnForms
-- ==== Proof.KernelValue.lean ====
/-
  The kernel body's arithmetic read at an index.  At grid point (b, i) the body loads tile i of batch b of q, k and v as
  [1, 512, 512] blocks x0, x1, x2.  Entry (r, c) of the scores is (∑ d, x0[0,r,d] · x1[0,c,d]) · s: the k block is
  transposed and the product is the plain [512, 512] × [512, 512] one into a zero accumulator; a change of float format is
  the identity on the extended reals.  The mask compares ⌊r / 64⌋, computed from the row iota, with ⌊c / 64⌋, computed
  from the column iota, each by the truncated quotient corrected through signs and remainders; on 0 … 511 that chain is
  the natural-number quotient.  Off the mask a score is replaced by the named constant, which is ⊥ here, so the masked
  entry is the tile-wise masked score; the lane maximum from the -∞ word is the fold of max from ⊥ over the row, the
  exponentials and their lane sum follow entry by entry, and the final select gives the quotient on the block and an
  exact zero off it: the tile's weight.  The output block is the product of the weights with the v block, and the
  weights block is stored over a fill of zeros.
-/
import proofs.«171919_j36206574306110_2_alg».proof.Proof.KernelTerm
import proofs.«171919_j36206574306110_2_alg».proof.Proof.Gen.KernelIdeal
import proofs.«171919_j36206574306110_2_alg».proof.Proof.LibDenseEntry
import proofs.«171919_j36206574306110_2_alg».proof.Proof.LibColumn
import proofs.«171919_j36206574306110_2_alg».proof.Proof.LibColumnForms
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnValue

open Idealize.ShloMosaic Idealize.ShloMosaic.ValueIdx Cert.KernelIdeal
open Cert.BlockAttn (tileOf inTile gRow)

/-! ## The arithmetic's pieces, named -/

/-- The floor quotient of `x` by `n` as the integer chain spells it. -/
def fdiv (x n : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt n 0#32)) (Scalar.extui (Scalar.cmpi .slt n 0#32))))
      (IntOp.cmpi .ne (IntOp.remsi .vector x n) 0#32))
    (IntOp.subi (IntOp.divsi .vector x n) 1#32)
    (IntOp.divsi .vector x n)

/-- The masked scores: the score where the bit is set, the named constant elsewhere. -/
def mscore (s : FVec Ideal S512x512 .f32) (m : IVec S512x512 1) : FVec Ideal S512x512 .f32 :=
  select m s (broadcast S512x512 (Named.named (F := Ideal) κ "neg_big" (φ := .f32) 0xFF333332#32))

/-- A row's maximum, broadcast back along the row. -/
def rowMaxB (x : FVec Ideal S512x512 .f32) : FVec Ideal S512x512 .f32 :=
  broadcastTo S512x512
    (shapeCast S512x1 (multiReduction .maximumf [1] S512 x 0xFF800000#32 Gen.reduces_S512x512_S512 (.inl rfl) rfl)
      Gen.shapeCasts_S512_S512x1) Gen.broadcasts_S512x1_S512x512

/-- A row's sum, broadcast back along the row. -/
def rowSumB (x : FVec Ideal S512x512 .f32) : FVec Ideal S512x512 .f32 :=
  broadcastTo S512x512
    (shapeCast S512x1 (multiReduction .add [1] S512 x 0x00000000#32 Gen.reduces_S512x512_S512 (.inl rfl) rfl)
      Gen.shapeCasts_S512_S512x1) Gen.broadcasts_S512x1_S512x512

/-- The exponentials of the masked scores less their row maximum. -/
def expB (x : FVec Ideal S512x512 .f32) : FVec Ideal S512x512 .f32 := exp (subf x (rowMaxB x))

/-! ## Lane reductions and the masked entry -/

theorem negInf_f32 : Ideal.ofBits .f32 0xFF800000#32 = ⊥ := by simp [Ideal.ofBits, Ideal.ieee]

/-- A lane maximum of an [a, b] f32 matrix from the -∞ word reads, at row r, the fold of max over the row from ⊥. -/
theorem multiReduction_max_lanes_f32 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max ⊥ (fun k => src (ix2 r k)) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [negInf_f32]
  have hf : (src ∘ h.lift (ix1 r)) = fun k => src (ix2 r k) :=
    funext fun k => congrArg src (funext fun c => Fin.ext (by
      match c with
      | ⟨0, _⟩ => rfl
      | ⟨1, _⟩ => rfl))
  rw [hf]
  rfl

theorem rowMaxB_apply (x : FVec Ideal S512x512 .f32) (r c : Fin 512) :
    rowMaxB x (ix2 r c) = (Finset.univ : Finset (Fin 512)).fold max ⊥ (fun k => x (ix2 r k)) := by
  unfold rowMaxB
  refine (Cert.LibColumn.broadcastTo_a1_ab_apply _ _ r c).trans ?_
  refine (Cert.LibColumn.shapeCast_a_a1_apply _ _ r 0).trans ?_
  exact multiReduction_max_lanes_f32 x _ _ _ r

theorem rowSumB_apply (x : FVec Ideal S512x512 .f32) (r c : Fin 512) :
    rowSumB x (ix2 r c) = ∑ k : Fin 512, x (ix2 r k) := by
  unfold rowSumB
  refine (Cert.LibColumn.broadcastTo_a1_ab_apply _ _ r c).trans ?_
  refine (Cert.LibColumn.shapeCast_a_a1_apply _ _ r 0).trans ?_
  exact Cert.ColumnForms.multiReduction_add_lanes_f32 x _ _ _ r

theorem mscore_apply (s : FVec Ideal S512x512 .f32) (m : IVec S512x512 1) (j : S512x512.Idx) :
    mscore s m j = if m j = 1#1 then s j else ⊥ := rfl

theorem expB_apply (x : FVec Ideal S512x512 .f32) (j : S512x512.Idx) :
    expB x j = Ideal.exp (x j - rowMaxB x j) := rfl

/-! ## The floor quotient by 64 and the body's weights unfolded -/

theorem fdiv_64 : ∀ m : Fin 512, fdiv (BitVec.ofNat 32 m.val) 64#32 = BitVec.ofNat 32 (m.val / 64) := by
  decide +kernel

theorem pay5_apply (r c : Fin 512) : Gen.k0_pay5 (ix2 r c) = BitVec.ofNat 32 (r.val / 64) := by
  refine Eq.trans ?_ (fdiv_64 r)
  have h : iota .tc S512x512 32 [0] Gen.iota_S512x512_d0_w32 (ix2 r c) = BitVec.ofNat 32 r.val :=
    iota_single_apply .tc S512x512 32 0 Gen.iota_S512x512_d0_w32 (ix2 r c)
  rw [← h]
  rfl

theorem pay6_apply (s : FVec Ideal S512x512 .f32) (v37 v38 : IVec S512x512 32) (n : BitVec 32) (r c : Fin 512) :
    Gen.k0_pay6 (F := Ideal) s v37 v38 n (ix2 r c)
      = Scalar.select (IntOp.cmpi .eq (v37 (ix2 r c)) (fdiv (v38 (ix2 r c)) n))
          (Ideal.div (expB (mscore s (fun j => IntOp.cmpi .eq (v37 j) (fdiv (v38 j) n))) (ix2 r c))
            (rowSumB (expB (mscore s (fun j => IntOp.cmpi .eq (v37 j) (fdiv (v38 j) n)))) (ix2 r c)))
          (Ideal.ofBits .f32 0x00000000#32) := rfl

/-! ## The two products, the casts, the fill -/

theorem pay4_apply (x0 x1 : Vec Ideal S1x512x512 .f32) (r c : Fin 512) :
    Gen.k0_pay4 (F := Ideal) x0 x1 (ix2 r c)
      = (∑ d : Fin 512, x0 (ix3 (0 : Fin 1) r d) * x1 (ix3 (0 : Fin 1) c d)) * Cert.BlockAttn.scale := by
  unfold Gen.k0_pay4
  refine (mulf_apply _ _ _).trans ?_
  refine congrArg₂ (· * ·) ?_ rfl
  refine (Cert.LibDenseEntry.matmul_plain_zero_apply dot_S512x512_S512x512_S512x512_1_0_0_1_n_n rfl rfl rfl rfl rfl rfl
    none _ _ r c).trans ?_
  refine Finset.sum_congr rfl fun d _ => ?_
  refine congrArg₂ (· * ·) ?_ ?_
  · exact shapeCast_1ab_ab_apply x0 _ r d
  · refine (transpose_ix2_apply _ _ d c).trans ?_
    exact shapeCast_1ab_ab_apply x1 _ c d

theorem pay2_apply (x2 : Vec Ideal S1x512x512 .f32) (A : FVec Ideal S512x512 .f32) (r d : Fin 512) :
    Gen.k0_pay2 (F := Ideal) (Gen.k0_pay3 (F := Ideal) x2) A (ix3 (0 : Fin 1) r d)
      = ∑ c : Fin 512, A (ix2 r c) * x2 (ix3 (0 : Fin 1) c d) := by
  unfold Gen.k0_pay2 Gen.k0_pay3
  refine (shapeCast_ab_1ab_apply _ _ (0 : Fin 1) r d).trans ?_
  refine (Cert.LibDenseEntry.matmul_plain_zero_apply dot_S512x512_S512x512_S512x512_1_0_0_1_n_n rfl rfl rfl rfl rfl rfl
    none _ _ r d).trans ?_
  refine Finset.sum_congr rfl fun c _ => congrArg₂ (· * ·) rfl ?_
  exact shapeCast_1ab_ab_apply x2 _ c d

theorem pay1_apply (A : FVec Ideal S512x512 .f32) (r c : Fin 512) :
    Gen.k0_pay1 (F := Ideal) A (ix3 (0 : Fin 1) r c) = A (ix2 r c) :=
  shapeCast_ab_1ab_apply A _ (0 : Fin 1) r c

theorem pay7_apply (y : S1x512x4096.Idx) : Gen.k0_pay7 (F := Ideal) y = 0 :=
  Ideal.ofBits_zero_f32

/-! ## The mask bit -/

theorem cmpi_eq_small : ∀ a b : Fin 8,
    IntOp.cmpi .eq (BitVec.ofNat 32 a.val) (BitVec.ofNat 32 b.val) = if a.val = b.val then 1#1 else 0#1 := by
  decide

/-- The in-tile mask: the row's block number against the column's. -/
def tileMask : IVec S512x512 1 :=
  fun j => IntOp.cmpi .eq (Gen.k0_pay5 j) (fdiv (iota .tc S512x512 32 [1] Gen.iota_S512x512_d1_w32 j) 64#32)

theorem tileMask_apply (r c : Fin 512) : tileMask (ix2 r c) = if r.val / 64 = c.val / 64 then 1#1 else 0#1 := by
  have hc : iota .tc S512x512 32 [1] Gen.iota_S512x512_d1_w32 (ix2 r c) = BitVec.ofNat 32 c.val :=
    iota_single_apply .tc S512x512 32 1 Gen.iota_S512x512_d1_w32 (ix2 r c)
  show IntOp.cmpi .eq (Gen.k0_pay5 (ix2 r c))
    (fdiv (iota .tc S512x512 32 [1] Gen.iota_S512x512_d1_w32 (ix2 r c)) 64#32) = _
  rw [pay5_apply, hc, fdiv_64 c]
  exact cmpi_eq_small ⟨r.val / 64, by have := r.isLt; omega⟩ ⟨c.val / 64, by have := c.isLt; omega⟩

/-! ## The softmax of a masked tile, for any entries -/

section Soft
variable (X : FVec Ideal S512x512 .f32) (T : Fin 512 → Fin 512 → EReal) (hX : ∀ r c : Fin 512, X (ix2 r c) = T r c)
include hX

theorem rowMaxB_of (r c : Fin 512) :
    rowMaxB X (ix2 r c) = (Finset.univ : Finset (Fin 512)).fold max ⊥ (fun k => T r k) := by
  refine (rowMaxB_apply X r c).trans ?_
  rw [show (fun k => X (ix2 r k)) = fun k => T r k from funext fun k => hX r k]

theorem expB_of (r c : Fin 512) :
    expB X (ix2 r c) = Ideal.exp (T r c - (Finset.univ : Finset (Fin 512)).fold max ⊥ (fun k => T r k)) := by
  rw [expB_apply, hX, rowMaxB_of X T hX]

theorem rowSumB_expB_of (r c : Fin 512) :
    rowSumB (expB X) (ix2 r c)
      = ∑ k : Fin 512, Ideal.exp (T r k - (Finset.univ : Finset (Fin 512)).fold max ⊥ (fun k' => T r k')) := by
  refine (rowSumB_apply (expB X) r c).trans ?_
  exact Finset.sum_congr rfl fun k _ => expB_of X T hX r k

end Soft

/-! ## The tile's weights -/

section Tile
variable (q k : FVec Ideal S4x4096x512 .f32) (b : Fin 4) (i : Fin 8) (x0 x1 : Vec Ideal S1x512x512 .f32)
  (hx0 : ∀ r d : Fin 512, x0 (ix3 (0 : Fin 1) r d) = q (ix3 b (gRow i r) d))
  (hx1 : ∀ r d : Fin 512, x1 (ix3 (0 : Fin 1) r d) = k (ix3 b (gRow i r) d))
include hx0 hx1

theorem score_apply (r c : Fin 512) :
    Gen.k0_pay4 (F := Ideal) x0 x1 (ix2 r c) = Cert.BlockAttn.score q k b (gRow i r) (gRow i c) := by
  refine (pay4_apply x0 x1 r c).trans ?_
  unfold Cert.BlockAttn.score
  refine congrArg₂ (· * ·) ?_ rfl
  exact Finset.sum_congr rfl fun d _ => by rw [hx0, hx1]

theorem masked_apply (r c : Fin 512) :
    mscore (Gen.k0_pay4 (F := Ideal) x0 x1) tileMask (ix2 r c) = Cert.BlockAttn.tMasked q k b i r c := by
  rw [mscore_apply, tileMask_apply, score_apply q k b i x0 x1 hx0 hx1]
  unfold Cert.BlockAttn.tMasked
  by_cases h : r.val / 64 = c.val / 64
  · rw [if_pos h, if_pos h, if_pos rfl]
  · rw [if_neg h, if_neg h, if_neg (by decide)]

theorem att_apply (r c : Fin 512) :
    Cert.KernelIdeal.AttnTerm.att x0 x1 (ix2 r c) = Cert.BlockAttn.tWeight q k b i r c := by
  have hm := masked_apply q k b i x0 x1 hx0 hx1
  refine (pay6_apply _ _ _ _ r c).trans ?_
  show Scalar.select (tileMask (ix2 r c))
      (Ideal.div (expB (mscore (Gen.k0_pay4 (F := Ideal) x0 x1) tileMask) (ix2 r c))
        (rowSumB (expB (mscore (Gen.k0_pay4 (F := Ideal) x0 x1) tileMask)) (ix2 r c)))
      (Ideal.ofBits .f32 0x00000000#32) = _
  rw [tileMask_apply, expB_of _ _ hm, rowSumB_expB_of _ _ hm, Ideal.ofBits_zero_f32]
  unfold Cert.BlockAttn.tWeight
  by_cases h : r.val / 64 = c.val / 64
  · rw [if_pos h, if_pos h, select_one]; rfl
  · rw [if_neg h, if_neg h, select_zero]

end Tile

/-! ## The two results -/

theorem kw_eq (q k : FVec Ideal Cert.KernelIdeal.S4x4096x512 .f32) (b : Fin 4) (r c : Fin 4096) :
    Cert.KernelIdeal.AttnTerm.kw q k b r c
      = if c.val / 512 = r.val / 512 then Cert.BlockAttn.tWeight q k b (tileOf r) (inTile r) (inTile c) else 0 := by
  unfold Cert.KernelIdeal.AttnTerm.kw
  by_cases h : c.val / 512 = r.val / 512
  · rw [if_pos h, if_pos h]
    refine (pay1_apply _ (inTile r) (inTile c)).trans ?_
    exact att_apply q k b (tileOf r) _ _ (fun _ _ => rfl) (fun _ _ => rfl) (inTile r) (inTile c)
  · rw [if_neg h, if_neg h]
    exact pay7_apply _

theorem ko_eq (q k v : FVec Ideal Cert.KernelIdeal.S4x4096x512 .f32) (b : Fin 4) (r : Fin 4096) (d : Fin 512) :
    Cert.KernelIdeal.AttnTerm.ko q k v b r d = Cert.BlockAttn.tOut q k v b (tileOf r) (inTile r) d := by
  unfold Cert.KernelIdeal.AttnTerm.ko Cert.BlockAttn.tOut
  refine (pay2_apply _ _ (inTile r) d).trans ?_
  refine Finset.sum_congr rfl fun c _ => congrArg₂ (· * ·) ?_ rfl
  exact att_apply q k b (tileOf r) _ _ (fun _ _ => rfl) (fun _ _ => rfl) (inTile r) c

end Cert.KernelIdeal.AttnValue

end
-- ==== Proof.TileMath.lean ====
/-
  The row-wise softmax is the tile-wise softmax.

  Fix a batch b, a tile i and a query row r inside it.  A key c outside the tile lies outside the query's 64-wide block,
  so its masked score is ⊥: it does not move the row maximum (max with ⊥ is the identity), its exponential is
  exp (⊥ - M) = exp ⊥ = 0, and it adds nothing to the row sum.  Hence the row maximum and the row sum over all 4096 keys
  are those over the tile's 512 keys, and the weight of a key inside the tile is the tile's.  Two quotients remain that
  are 0 / l: a key inside the tile but outside the block, and a key outside the tile.  On the extended reals 0 / l = 0
  needs l ≠ 0, and that is where the arguments being real numbers is used: the query's own score is then a real number,
  so is the row maximum, and the exponential of their difference is a positive term of the sum l.
-/
import proofs.«171919_j36206574306110_2_alg».proof.Proof.Spec
import Mathlib.Data.Finset.Fold
import Mathlib.Data.EReal.Inv
import Mathlib.Algebra.BigOperators.Group.Finset.Basic

noncomputable section

namespace Cert.BlockAttn

open Idealize.ShloMosaic Idealize.ShloMosaic.ValueIdx
open scoped BigOperators

/-! ## Rows and tiles -/

theorem gRow_val (i : Fin 8) (c : Fin 512) : (gRow i c).val = 512 * i.val + c.val := rfl

theorem gRow_div (i : Fin 8) (c : Fin 512) : (gRow i c).val / 512 = i.val := by
  have := c.isLt; rw [gRow_val]; omega

theorem gRow_injective (i : Fin 8) : Function.Injective (gRow i) := fun a b h => by
  have := congrArg Fin.val h; rw [gRow_val, gRow_val] at this; exact Fin.ext (by omega)

theorem gRow_inTile (i : Fin 8) (c : Fin 4096) (h : c.val / 512 = i.val) : gRow i (inTile c) = c :=
  Fin.ext (by rw [gRow_val]; show 512 * i.val + c.val % 512 = c.val; omega)

theorem inTile_gRow (i : Fin 8) (c : Fin 512) : inTile (gRow i c) = c :=
  Fin.ext (by show (gRow i c).val % 512 = c.val; rw [gRow_val]; have := c.isLt; omega)

theorem gRow_block (i : Fin 8) (r c : Fin 512) :
    (gRow i r).val / 64 = (gRow i c).val / 64 ↔ r.val / 64 = c.val / 64 := by
  rw [gRow_val, gRow_val]; constructor <;> intro h <;> omega

theorem off_tile_off_block (i : Fin 8) (r : Fin 512) (c : Fin 4096) (h : c.val / 512 ≠ i.val) :
    ¬ (gRow i r).val / 64 = c.val / 64 := by
  rw [gRow_val]; have := r.isLt; omega

/-! ## A maximum and a sum over 4096 keys that live on one tile -/

/-- A maximum folded from ⊥ over keys that are ⊥ outside tile `i` is the maximum over the tile. -/
theorem fold_max_tile (i : Fin 8) (f : Fin 4096 → EReal) (hf : ∀ c : Fin 4096, c.val / 512 ≠ i.val → f c = ⊥) :
    (Finset.univ : Finset (Fin 4096)).fold max ⊥ f = (Finset.univ : Finset (Fin 512)).fold max ⊥ (fun c => f (gRow i c)) := by
  apply le_antisymm
  · rw [Finset.fold_max_le]
    refine ⟨bot_le, fun c _ => ?_⟩
    by_cases h : c.val / 512 = i.val
    · rw [Finset.le_fold_max]
      exact Or.inr ⟨inTile c, Finset.mem_univ _, by rw [gRow_inTile i c h]⟩
    · rw [hf c h]; exact bot_le
  · rw [Finset.fold_max_le]
    refine ⟨bot_le, fun c _ => ?_⟩
    rw [Finset.le_fold_max]
    exact Or.inr ⟨gRow i c, Finset.mem_univ _, le_rfl⟩

/-- A sum over keys that are 0 outside tile `i` is the sum over the tile. -/
theorem sum_tile (i : Fin 8) (g : Fin 4096 → EReal) (hg : ∀ c : Fin 4096, c.val / 512 ≠ i.val → g c = 0) :
    ∑ c : Fin 4096, g c = ∑ c : Fin 512, g (gRow i c) := by
  rw [← Finset.sum_image (s := (Finset.univ : Finset (Fin 512))) (g := gRow i) (f := g)
    (fun a _ b _ h => gRow_injective i h)]
  symm
  refine Finset.sum_subset (Finset.subset_univ _) (fun c _ hc => ?_)
  refine hg c (fun h => hc ?_)
  rw [Finset.mem_image]
  exact ⟨inTile c, Finset.mem_univ _, gRow_inTile i c h⟩

/-! ## The masked scores, tile against row -/

variable (q k : SQ.Idx → EReal)

theorem masked_tile (b : Fin 4) (i : Fin 8) (r c : Fin 512) :
    masked q k b (gRow i r) (gRow i c) = tMasked q k b i r c := by
  unfold masked tMasked
  by_cases h : r.val / 64 = c.val / 64
  · rw [if_pos ((gRow_block i r c).mpr h), if_pos h]
  · rw [if_neg (fun h' => h ((gRow_block i r c).mp h')), if_neg h]

theorem masked_off (b : Fin 4) (i : Fin 8) (r : Fin 512) (c : Fin 4096) (h : c.val / 512 ≠ i.val) :
    masked q k b (gRow i r) c = ⊥ := by
  unfold masked; rw [if_neg (off_tile_off_block i r c h)]

theorem rowMax_tile (b : Fin 4) (i : Fin 8) (r : Fin 512) : rowMax q k b (gRow i r) = tMax q k b i r := by
  unfold rowMax tMax
  rw [fold_max_tile i _ (fun c h => masked_off q k b i r c h)]
  exact congrArg (fun f => (Finset.univ : Finset (Fin 512)).fold max ⊥ f) (funext fun c => masked_tile q k b i r c)

theorem expo_tile (b : Fin 4) (i : Fin 8) (r c : Fin 512) : expo q k b (gRow i r) (gRow i c) = tExp q k b i r c := by
  unfold expo tExp; rw [masked_tile, rowMax_tile]

theorem expo_off (b : Fin 4) (i : Fin 8) (r : Fin 512) (c : Fin 4096) (h : c.val / 512 ≠ i.val) :
    expo q k b (gRow i r) c = 0 := by
  unfold expo; rw [masked_off q k b i r c h, EReal.bot_sub]; rfl

theorem rowSum_tile (b : Fin 4) (i : Fin 8) (r : Fin 512) : rowSum q k b (gRow i r) = tSum q k b i r := by
  unfold rowSum tSum
  rw [sum_tile i _ (fun c h => expo_off q k b i r c h)]
  exact Finset.sum_congr rfl fun c _ => expo_tile q k b i r c

/-! ## Real arguments: the row sum is not zero -/

/-- The scale is a real number: its exponent field is neither all ones nor zero, so the pattern denotes a finite normal value. -/
theorem scale_real : ∃ x : ℝ, scale = (x : EReal) := by
  show ∃ x : ℝ, Ideal.ieee 8 23 (0x3D3504F3#32 : BitVec 32) = (x : EReal)
  unfold Ideal.ieee
  dsimp only
  rw [if_neg (by decide), if_neg (by decide)]
  exact ⟨_, rfl⟩

theorem coe_sum_real {ι : Type} (s : Finset ι) (g : ι → ℝ) : ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- With real arguments every score is a real number. -/
theorem score_real (hq : ∀ j, ∃ x : ℝ, q j = (x : EReal)) (hk : ∀ j, ∃ x : ℝ, k j = (x : EReal))
    (b : Fin 4) (r c : Fin 4096) : ∃ x : ℝ, score q k b r c = (x : EReal) := by
  choose qr hqr using hq
  choose kr hkr using hk
  obtain ⟨s, hs⟩ := scale_real
  refine ⟨(∑ d : Fin 512, qr (ix3 b r d) * kr (ix3 b c d)) * s, ?_⟩
  unfold score
  rw [hs, EReal.coe_mul, coe_sum_real]
  refine congrArg (· * (s : EReal)) (Finset.sum_congr rfl fun d _ => ?_)
  rw [hqr, hkr, EReal.coe_mul]

theorem exp_nonneg' (x : EReal) : 0 ≤ Ideal.exp x := by
  induction x using EReal.rec with
  | bot => exact le_rfl
  | top => exact le_top
  | coe r => exact EReal.coe_nonneg.mpr (Real.exp_pos r).le

/-- With real arguments the tile's row sum is positive: the query's own term is. -/
theorem tSum_pos (hq : ∀ j, ∃ x : ℝ, q j = (x : EReal)) (hk : ∀ j, ∃ x : ℝ, k j = (x : EReal))
    (b : Fin 4) (i : Fin 8) (r : Fin 512) : 0 < tSum q k b i r := by
  -- the query's own masked score is a real number
  obtain ⟨s, hs⟩ := score_real q k hq hk b (gRow i r) (gRow i r)
  have hself : tMasked q k b i r r = (s : EReal) := by unfold tMasked; rw [if_pos rfl, hs]
  -- the row maximum is a real number: no entry is ⊤, and the query's own entry is not ⊥
  have hne_top : tMax q k b i r ≠ ⊤ := by
    refine ne_of_lt ?_
    unfold tMax
    rw [Finset.fold_max_lt]
    refine ⟨bot_lt_top, fun c _ => ?_⟩
    unfold tMasked
    by_cases h : r.val / 64 = c.val / 64
    · rw [if_pos h]; obtain ⟨x, hx⟩ := score_real q k hq hk b (gRow i r) (gRow i c); rw [hx]; exact EReal.coe_lt_top x
    · rw [if_neg h]; exact bot_lt_top
  have hge : (s : EReal) ≤ tMax q k b i r := by
    unfold tMax; rw [Finset.le_fold_max]; exact Or.inr ⟨r, Finset.mem_univ _, hself.ge⟩
  have hne_bot : tMax q k b i r ≠ ⊥ := fun h => by rw [h] at hge; exact absurd hge (not_le.mpr (EReal.bot_lt_coe s))
  obtain ⟨M, hM⟩ : ∃ M : ℝ, tMax q k b i r = (M : EReal) := ⟨_, (EReal.coe_toReal hne_top hne_bot).symm⟩
  have hterm : 0 < tExp q k b i r r := by
    unfold tExp; rw [hself, hM, ← EReal.coe_sub]
    exact EReal.coe_pos.mpr (Real.exp_pos _)
  unfold tSum
  exact lt_of_lt_of_le hterm
    (Finset.single_le_sum (f := fun c => tExp q k b i r c) (fun c _ => exp_nonneg' _) (Finset.mem_univ r))

theorem div_zero_left (y : EReal) (hy : y ≠ 0) : Ideal.div 0 y = 0 := by
  unfold Ideal.div; rw [if_neg hy, zero_mul]

/-! ## The weights and the output -/

theorem weight_gRow (hq : ∀ j, ∃ x : ℝ, q j = (x : EReal)) (hk : ∀ j, ∃ x : ℝ, k j = (x : EReal))
    (b : Fin 4) (i : Fin 8) (r : Fin 512) (c : Fin 4096) :
    weight q k b (gRow i r) c = if c.val / 512 = i.val then tWeight q k b i r (inTile c) else 0 := by
  have hl : tSum q k b i r ≠ 0 := (tSum_pos q k hq hk b i r).ne'
  unfold weight
  rw [rowSum_tile]
  by_cases h : c.val / 512 = i.val
  · rw [if_pos h]
    have hc : c = gRow i (inTile c) := (gRow_inTile i c h).symm
    rw [show expo q k b (gRow i r) c = tExp q k b i r (inTile c) by conv_lhs => rw [hc]; exact expo_tile q k b i r _]
    unfold tWeight
    by_cases hb : r.val / 64 = (inTile c).val / 64
    · rw [if_pos hb]
    · rw [if_neg hb]
      have : tExp q k b i r (inTile c) = 0 := by
        unfold tExp tMasked; rw [if_neg hb, EReal.bot_sub]; rfl
      rw [this, div_zero_left _ hl]
  · rw [if_neg h, expo_off q k b i r c h, div_zero_left _ hl]

/-- The weight of key `c` for query `r`: inside the query's tile the tile's weight, outside it zero. -/
theorem weight_tile (hq : ∀ j, ∃ x : ℝ, q j = (x : EReal)) (hk : ∀ j, ∃ x : ℝ, k j = (x : EReal))
    (b : Fin 4) (r c : Fin 4096) :
    weight q k b r c = if c.val / 512 = r.val / 512 then tWeight q k b (tileOf r) (inTile r) (inTile c) else 0 := by
  have h := weight_gRow q k hq hk b (tileOf r) (inTile r) c
  rw [gRow_tileOf_inTile] at h
  exact h

/-- The output row: the weighted sum over all keys is the weighted sum over the tile's. -/
theorem out_tile (hq : ∀ j, ∃ x : ℝ, q j = (x : EReal)) (hk : ∀ j, ∃ x : ℝ, k j = (x : EReal))
    (v : SQ.Idx → EReal) (b : Fin 4) (r : Fin 4096) (d : Fin 512) :
    (∑ c : Fin 4096, weight q k b r c * v (ix3 b c d)) = tOut q k v b (tileOf r) (inTile r) d := by
  have hw : ∀ c : Fin 4096, weight q k b r c
      = if c.val / 512 = (tileOf r).val then tWeight q k b (tileOf r) (inTile r) (inTile c) else 0 :=
    fun c => weight_tile q k hq hk b r c
  rw [sum_tile (tileOf r) _ (fun c h => by rw [hw c, if_neg h, zero_mul])]
  unfold tOut
  refine Finset.sum_congr rfl fun c _ => ?_
  rw [hw, if_pos (gRow_div _ c), inTile_gRow]

end Cert.BlockAttn

end
-- ==== Proof.Bridge.lean ====
/-
  The kernel's result arrays are the row-wise specification.  Entry by entry the kernel's arrays are the tile-wise softmax
  (read off the body's operations); for real-valued q and k the tile-wise softmax is the row-wise one (the keys outside
  a row's tile carry weight zero and add nothing to its maximum, its sum or its output).  The mask both programs compute
  is the block mask.
-/
import proofs.«171919_j36206574306110_2_alg».proof.Proof.KernelValue
import proofs.«171919_j36206574306110_2_alg».proof.Proof.RefTerm
import proofs.«171919_j36206574306110_2_alg».proof.Proof.Gen.ReferenceIdeal
import proofs.«171919_j36206574306110_2_alg».proof.Proof.TileMath
import proofs.«171919_j36206574306110_2_alg».proof.Proof.BlockMask

noncomputable section

namespace Cert.Bridge

open Idealize.ShloMosaic Idealize.ShloMosaic.ValueIdx Cert.BlockAttn

/-- The kernel's weights array is the specification's, for real-valued q and k. -/
theorem KW_eq (q k : FVec Ideal Cert.KernelIdeal.S4x4096x512 .f32)
    (hq : ∀ j, ∃ x : ℝ, q j = (x : EReal)) (hk : ∀ j, ∃ x : ℝ, k j = (x : EReal)) :
    Cert.KernelIdeal.AttnTerm.KW q k = W q k := by
  funext j
  obtain ⟨b, r, c, rfl⟩ : ∃ (b : Fin 4) (r c : Fin 4096), j = ix3 b r c := ⟨j 0, j 1, j 2, eq_ix3 j⟩
  show Cert.KernelIdeal.AttnTerm.kw q k b r c = weight q k b r c
  rw [Cert.KernelIdeal.AttnValue.kw_eq, weight_tile q k hq hk]

/-- The kernel's output array is the specification's, for real-valued q and k. -/
theorem KO_eq (q k v : FVec Ideal Cert.KernelIdeal.S4x4096x512 .f32)
    (hq : ∀ j, ∃ x : ℝ, q j = (x : EReal)) (hk : ∀ j, ∃ x : ℝ, k j = (x : EReal)) :
    Cert.KernelIdeal.AttnTerm.KO q k v = O q k v := by
  funext j
  obtain ⟨b, r, d, rfl⟩ : ∃ (b : Fin 4) (r : Fin 4096) (d : Fin 512), j = ix3 b r d := ⟨j 0, j 1, j 2, eq_ix3 j⟩
  show Cert.KernelIdeal.AttnTerm.ko q k v b r d = ∑ c : Fin 4096, weight q k b r c * v (ix3 b c d)
  rw [Cert.KernelIdeal.AttnValue.ko_eq, out_tile q k hq hk]

/-- The kernel program's mask is the block mask. -/
theorem KM_eq : Cert.KernelIdeal.AttnTerm.KM = Cert.BlockAttn.M := blockMask_eq _ _ _ _ _

/-- The reference's mask is the block mask. -/
theorem RM_eq : Cert.ReferenceIdeal.AttnTerm.mask = Cert.BlockAttn.M := blockMask_eq _ _ _ _ _

end Cert.Bridge

end
-- ==== Proof.Finite.lean ====
/-
  The precondition says the arguments are real numbers.  It is three tests "every |x| < +inf" joined by `and`; a test
  that came out 1 had a 1 at every entry; and on the extended reals |x| = max x (-x) < ⊤ rules out x = ⊤ and x = ⊥.
-/
import proofs.«171919_j36206574306110_2_alg».proof.Pre_finite_inputs
import proofs.«171919_j36206574306110_2_alg».proof.Proof.Gen.Pre_finite_inputs
import Idealize.ShloMosaic.Lib.ReduceAll
import Idealize.ShloMosaic.PureOps.Ideal
import Idealize.ShloMosaic.Lib.ValueIdx

noncomputable section

namespace Cert.Pre_finite_inputs.Real

open Idealize.ShloMosaic Cert.Pre_finite_inputs

instance : Subsingleton S_.Idx := ⟨fun _ _ => funext fun d => d.elim0⟩

/-- The pattern of +inf denotes ⊤. -/
theorem ofBits_inf : Ideal.ofBits .f32 0x7F800000#32 = ⊤ := by
  show Ideal.ieee 8 23 (0x7F800000#32 : BitVec 32) = ⊤
  unfold Ideal.ieee
  dsimp only
  rw [if_pos (by decide), if_pos (by decide), if_neg (by decide)]

/-- An extended real whose absolute value compares below +inf is a real number. -/
theorem real_of_test (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    have : Ideal.cmp .olt (max x (-x)) ⊤ = 0#1 := by
      unfold Ideal.cmp; simp only [decide_eq_false hn]; rfl
    rw [this] at h; exact absurd h (by decide)
  induction x using EReal.rec with
  | bot => exact absurd hlt (by simp)
  | top => exact absurd hlt (by simp)
  | coe r => exact ⟨r, rfl⟩

/-- Under the precondition every entry of each argument is a real number. -/
theorem real_of_pre (a0 a1 a2 : FVec Ideal S4x4096x512 .f32)
    (h : Cert.Pre_finite_inputs.fn (F := Ideal) a0 a1 a2 = fun _ => 1#1) :
    (∀ j, ∃ r : ℝ, a0 j = (r : EReal)) ∧ (∀ j, ∃ r : ℝ, a1 j = (r : EReal)) ∧ (∀ j, ∃ r : ℝ, a2 j = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun j => real_of_test _ ?_, fun j => real_of_test _ ?_, fun j => real_of_test _ ?_⟩
  · exact Host.reduce_andi_all _ _ _ _ _ h0' j
  · exact Host.reduce_andi_all _ _ _ _ _ h1 j
  · exact Host.reduce_andi_all _ _ _ _ _ h2 j

end Cert.Pre_finite_inputs.Real

end
-- ==== Proof.lean ====
/-
  Block-local attention: a tiled kernel against the dense reference, on the extended reals.

  Both programs score every query row against keys by the scaled inner product (the same scale word on both sides), mask
  the keys outside the query's 64-wide block to -∞ (the reference with the infinity itself, the kernel with a large
  negative constant that the certificate's table names -∞), take the softmax of the masked row and multiply by the values.
  The reference does so over all 4096 keys of a row; the kernel only over the 512 keys of the row's tile, filling the
  rest of the weights row with zeros.  A masked key's exponential is exp (-∞) = 0, so the row maximum, the row sum and
  the output are the same over the tile as over the whole row, and a masked key's weight is 0 / l = 0 because the row sum
  l is not zero: it contains the positive term of the query's own key, the scores being real numbers when q and k are.
  That is the one place the precondition is used.  The third result, the block mask, is the same integer computation in
  both programs.

  Proof/Spec.lean states the three results as functions of the arguments; Proof/TileMath.lean proves the tile-wise form
  equal to the row-wise one; Proof/BlockMask.lean reads the mask; Proof/Finite.lean reads the precondition;
  Proof/RefRun.lean and Proof/RefValue.lean run the reference and read its operations at an index; Proof/KernelRun.lean
  and Proof/KernelValue.lean do the same for the kernel, over its generated frame certificate; Proof/Bridge.lean joins them.
-/
import proofs.«171919_j36206574306110_2_alg».proof.Defs
import proofs.«171919_j36206574306110_2_alg».proof.Proof.Gen.Kernel
import proofs.«171919_j36206574306110_2_alg».proof.Proof.Gen.Kernel.Frame
import proofs.«171919_j36206574306110_2_alg».proof.Proof.Gen.KernelIdeal
import proofs.«171919_j36206574306110_2_alg».proof.Proof.Gen.KernelIdeal.Frame
import proofs.«171919_j36206574306110_2_alg».proof.Proof.Gen.ReferenceIdeal
import proofs.«171919_j36206574306110_2_alg».proof.Proof.Gen.Pre_finite_inputs
import proofs.«171919_j36206574306110_2_alg».proof.Proof.KernelRun
import proofs.«171919_j36206574306110_2_alg».proof.Proof.RefRun
import proofs.«171919_j36206574306110_2_alg».proof.Proof.RefValue
import proofs.«171919_j36206574306110_2_alg».proof.Proof.Bridge
import proofs.«171919_j36206574306110_2_alg».proof.Proof.Finite
import Idealize.ShloMosaic.PureOps.IdealRules
import Idealize.ShloMosaic.Adequacy
import Idealize.ShloMosaic.Init

noncomputable section

namespace Cert.Proof

open Idealize.ShloMosaic Idealize.SL.Sem

/-- The word-level kernel runs and keeps its arguments: its generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => ⟨(h c).2.2.2.1, (h c).2.2.2.2.1, (h c).2.2.2.2.2⟩)
    (Cert.ReferenceIdeal.AttnRun.run m ρ)

/-- The one rewrite of the idealization: the large negative fill constant is named -∞ by the certificate's table. -/
theorem preserves : Cert.preserves_Kernel_KernelIdeal :=
  IdealRules.named_const.statement Cert.KernelIdeal.κ "neg_big" .f32 0xFF333332#32 ⊥ rfl

/-- From arguments that agree, both programs end with the specification's three arrays. -/
theorem algebraic : Cert.algebraic_KernelIdeal_ReferenceIdeal := by
  intro m ρ m' ρ' hpre hagree
  refine ⟨fun c => Cert.BlockAttn.O (m ((c.tc : Thread _ _).loc Cert.KernelIdeal.main_arg0))
      (m ((c.tc : Thread _ _).loc Cert.KernelIdeal.main_arg1)) (m ((c.tc : Thread _ _).loc Cert.KernelIdeal.main_arg2)),
    fun c => Cert.BlockAttn.W (m ((c.tc : Thread _ _).loc Cert.KernelIdeal.main_arg0))
      (m ((c.tc : Thread _ _).loc Cert.KernelIdeal.main_arg1)),
    fun _ => Cert.BlockAttn.M, ?_, ?_⟩
  · refine (θ_run Cert.KernelIdeal.defs _ _).mono (fun r h c => ?_) (Cert.KernelIdeal.AttnRun.run m ρ)
    obtain ⟨h0, h1, h2, h3, h4, h5⟩ := h c
    obtain ⟨hq, hk, -⟩ := Cert.Pre_finite_inputs.Real.real_of_pre _ _ _ (hpre c)
    exact ⟨h0.trans (Cert.Bridge.KO_eq _ _ _ hq hk), h1.trans (Cert.Bridge.KW_eq _ _ hq hk),
      h2.trans Cert.Bridge.KM_eq, h3, h4, h5⟩
  · refine (θ_run Cert.ReferenceIdeal.defs _ _).mono (fun r h c => ?_) (Cert.ReferenceIdeal.AttnRun.run m' ρ')
    obtain ⟨h0, h1, h2, h3, h4, h5⟩ := h c
    obtain ⟨e0, e1, e2⟩ := hagree c
    refine ⟨h0.trans ?_, h1.trans ?_, h2.trans Cert.Bridge.RM_eq, h3, h4, h5⟩
    · rw [Cert.ReferenceIdeal.AttnValue.O_eq, e0, e1, e2]
    · rw [Cert.ReferenceIdeal.AttnValue.W_eq, e0, e1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
